-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096x16 .f32) (main_arg3 : FVec F S16x4096 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S1024x1024 : Shape := ⟨2, ![1024, 1024]⟩
abbrev S1024x16 : Shape := ⟨2, ![1024, 16]⟩
abbrev S16x1024 : Shape := ⟨2, ![16, 1024]⟩
abbrev S16384x4096 : Shape := ⟨2, ![16384, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | .local _ .vmem, ⟨11, _⟩ => ⟨S2048x512, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 2, 8], ![false, false, false]⟩

def k1_cond1 (i : grid1.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k1_cond2 (i : grid1.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def k1_cond3 (i : grid1.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x4096x4096_S16384x4096 : S4x4096x4096.ShapeCasts S16384x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S4x4096x4096 : S16384x4096.ShapeCasts S4x4096x4096
  dot_S1024x16_S16x1024_S1024x1024_1_0_0_1_n_n_wf : DotDims.WF S1024x16 S16x1024 S1024x1024 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x4096.size a
  hwx1_3 : ∀ i : grid1.Coords, EltTy.bits .f32 = 32 ∨ (Rect.block (s := S16384x4096) S1024x2048.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) && !(k1_cond3 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Kernel.Reg0.lean ====
/-
  Region 0 (the effective-weight kernel) as a pipeline with proof data, at any float instance.
  Grid point (i, j) of the 4 x 4 grid reads block (i, j) of W_q (1024 x 1024), row block i of A (1024 x 16) and
  column block j of B (16 x 1024), and writes block (i, j) of the effective weight: one store of the whole output
  block, whose value is a function of the three input blocks only. So after the body the output's staging buffer
  holds that one stored piece read back, whatever it held before.
-/
import proofs.«142736_j65687229825366_2_alg».proof.Proof.Gen.Kernel.Launch
import proofs.«142736_j65687229825366_2_alg».proof.Proof.Gen.Kernel.Skeleton
import proofs.«142736_j65687229825366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_3 : View sig .tc .vmem S1024x1024 .bf16 := (Memref.whole cc0_stg3_0 : Memref sig .tc .vmem S1024x1024 .bf16).view

set_option maxHeartbeats 1000000 in
/-- The pieces the body's stores leave in the output's staging memref (last first), with the proof that on whole
    staging memrefs, the inputs' at their contents and the output's at anything, the body runs to the continuation
    holding the inputs' as they were and the output's buffer with those pieces written. -/
noncomputable def kernelRun0 (c : Dev nD) (i : grid0.Coords) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) :
    { L3 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__effw_kernel i arg2 harg2 arg3 harg3 arg4 harg4 arg5 harg5) K } := by
  refine ⟨?_, fun E K => ?run⟩
  case run =>
    simp only [cc0__effw_kernel_eq_skeleton]; unfold cc0__effw_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The pieces tile the output block, so they cover it. -/
theorem cover0_3 (c : Dev nD) (i : grid0.Coords) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) (y : S1024x1024.Idx) :
    ∃ pc ∈ (kernelRun0 c i arg2 harg2 arg3 harg3 arg4 harg4 arg5 harg5 x0 x1 x2).1, y ∈ pc.1.set :=
  View.cover_of_tiledL (kernelRun0 c i arg2 harg2 arg3 harg3 arg4 harg4 arg5 harg5 x0 x1 x2).1 S1024x1024.size (by sl_kernel_rfl) y

/-- What the body leaves in the output's staging buffer: its pieces read back. -/
def out0_3 (c : Dev nD) (i : grid0.Coords) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) : Vec F S1024x1024 .bf16 :=
  VO0_3.read (Elt F) (VO0_3.writes (Elt F) VO0_3.junk (kernelRun0 c i arg2 harg2 arg3 harg3 arg4 harg4 arg5 harg5 x0 x1 x2).1)

/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)

/-- The output block of point `t`: the body's pieces over the three input blocks at `t`. -/
def outAt0 (c : Dev nD) (t : Fin cfg0.N) : Vec F S1024x1024 .bf16 :=
  out0_3 c (grid0.coords t) (ms0_0 t) (hs0_0 t) (ms0_1 t) (hs0_1 t) (ms0_2 t) (hs0_2 t) (ms0_3 t) (hs0_3 t)
    (iblk0 V c 0 t) (iblk0 V c 1 t) (iblk0 V c 2 t)

/-- The proof data of pipeline 0 on core `c`: the arrays as the region finds them; after the body at point `t`
    each input's buffer at its block and the output's at `outAt0`; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Reg1Runs.lean ====
/-
  Region 1 (the tiled matmul with bias) — what its control cases share. The grid is 16 x 2 x 8, the last axis k walking
  the contracted axis in 8 blocks of 512. At point (i, j, k) the body forms the partial product of x's block (i, k)
  with the effective weight's block (j, k); it stores it into the output block (i, j) when k = 0, adds it to what the
  block holds when k ≠ 0, and when k = 7 then also adds the bias's block j to every row. The output block is written
  back only at k = 7, so between k = 0 and k = 7 its staging buffer carries the running sum.
-/
import proofs.«142736_j65687229825366_2_alg».proof.Proof.Gen.Kernel.Launch
import proofs.«142736_j65687229825366_2_alg».proof.Proof.Gen.Kernel.Skeleton
import proofs.«142736_j65687229825366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's three conditions over the grid: k = 0, k ≠ 0, k = 7, with k the point's position modulo 8 -/

theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond1_2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)
theorem hcond1_3 : ∀ t : Fin cfg1.N, k1_cond3 (grid1.coords t) = 1#1 ↔ t.val % 8 = 7 :=
  (by decide +kernel : ∀ t : Fin grid1.N, k1_cond3 (grid1.coords t) = 1#1 ↔ t.val % 8 = 7)

/-- At every coordinate one of the first two conditions holds (k = 0 or k ≠ 0), so the output window is never idle. -/
theorem live1_3 (i : grid1.Coords) : cfg1.idle 3 i = false := by
  have h : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)
      && !(Scalar.cmpi .ne (Scalar.extui (Scalar.cmpi .eq (BitVec.ofNat 32 k.val) 7#32)) 0#32 == 1#1)) = false := by decide
  exact h (i 2)

theorem live1 (w : Fin cfg1.W) (i : grid1.Coords) : cfg1.idle w i = false := by
  match w with
  | ⟨0, _⟩ => rfl
  | ⟨1, _⟩ => rfl
  | ⟨2, _⟩ => rfl
  | ⟨3, _⟩ => exact live1_3 i

/-- One staging buffer of the output window, through which its contents are stated. -/
abbrev VO1_3 : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

end Cert.Kernel.Hand

end
-- ==== Proof.Kernel.Run1A.lean ====
/-
  Region 1's body in case A: k = 0 — the partial product is stored over whatever the output's buffer held.
-/
import proofs.«142736_j65687229825366_2_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The pieces the body's stores leave in the output's staging memref in this case (last first), with the proof that on
    whole staging memrefs — the inputs' at their contents, the output's as stated — the body runs to the continuation
    holding the inputs' as they were and the output's buffer with those pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__mm_kernel i arg3 harg3 arg4 harg4 arg5 harg5 arg6 harg6) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Hand

end
-- ==== Proof.Kernel.Run1B.lean ====
/-
  Region 1's body in case B: 0 < k < 7 — the partial product is added to the running contents of the output's buffer.
-/
import proofs.«142736_j65687229825366_2_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The pieces the body's stores leave in the output's staging memref in this case (last first), with the proof that on
    whole staging memrefs — the inputs' at their contents, the output's as stated — the body runs to the continuation
    holding the inputs' as they were and the output's buffer with those pieces written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__mm_kernel i arg3 harg3 arg4 harg4 arg5 harg5 arg6 harg6) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Hand

end
-- ==== Proof.Kernel.Run1C.lean ====
/-
  Region 1's body in case C: k = 7 — the partial product is added to the running contents, and then the bias block is added to every row of the result.
-/
import proofs.«142736_j65687229825366_2_alg».proof.Proof.Kernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The pieces the body's stores leave in the output's staging memref in this case (last first), with the proof that on
    whole staging memrefs — the inputs' at their contents, the output's as stated — the body runs to the continuation
    holding the inputs' as they were and the output's buffer with those pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__mm_kernel i arg3 harg3 arg4 harg4 arg5 harg5 arg6 harg6) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Hand

end
-- ==== Proof.Kernel.Reg1.lean ====
/-
  Region 1 as a pipeline with proof data, at any float instance: what the output block's staging buffer holds after
  each grid point, by recursion on the point — the partial product at k = 0, the point before plus the partial product
  for 0 < k < 7, and that plus the bias at k = 7 —, and the body obligation by cases on k.
-/
import proofs.«142736_j65687229825366_2_alg».proof.Proof.Kernel.Run1A
import proofs.«142736_j65687229825366_2_alg».proof.Proof.Kernel.Run1B
import proofs.«142736_j65687229825366_2_alg».proof.Proof.Kernel.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Case A's pieces tile the output block, so they cover it. -/
theorem cover1_A_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1) (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 hc1 hc2 hc3 x0 x1 x2).1, y ∈ pc.1.set :=
  View.cover_of_tiledL (kernelRun1_A c i arg3 harg3 arg4 harg4 arg5 harg5 arg6 harg6 hc1 hc2 hc3 x0 x1 x2).1 S1024x2048.size (by sl_kernel_rfl) y

/-- What case A leaves in the output's staging buffer: its pieces read back. -/
def out1_A_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1) (x0 : Vec F S1024x512 .f32) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 hc1 hc2 hc3 x0 x1 x2).1)

/-- Case B's pieces tile the output block, so they cover it. -/
theorem cover1_B_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1) (x0 : Vec F S1024x512 .f32) (x1 : Vec F S2048x512 .bf16) (x2 : Vec F S1x2048 .f32) (xo : Vec F S1024x2048 .f32) (y : S1024x2048.Idx) :
    ∃ pc ∈ (kernelRun1_B c i arg3 harg3 arg4 harg4 arg5 harg5 arg6 harg6 hc1 hc2 hc3 x0 x1 x2 xo).1, y ∈ pc.1.set :=
  View.cover_of_tiledL (kernelRun1_B c i arg3 harg3 arg4 harg4 arg5 harg5 arg6 harg6 hc1 hc2 hc3 x0 x1 x2 xo).1 S1024x2048.size (by sl_kernel_rfl) y

/-- What case B leaves in the output's staging buffer: its pieces read back. -/
def out1_B_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1) (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_B c i arg3 harg3 arg4 harg4 arg5 harg5 arg6 harg6 hc1 hc2 hc3 x0 x1 x2 xo).1)

/-- Case C's pieces tile the output block, so they cover it. -/
theorem cover1_C_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1) (x0 : Vec F S1024x512 .f32) (x1 : Vec F S2048x512 .bf16) (x2 : Vec F S1x2048 .f32) (xo : Vec F S1024x2048 .f32) (y : S1024x2048.Idx) :
    ∃ pc ∈ (kernelRun1_C c i arg3 harg3 arg4 harg4 arg5 harg5 arg6 harg6 hc1 hc2 hc3 x0 x1 x2 xo).1, y ∈ pc.1.set :=
  View.cover_of_tiledL (kernelRun1_C c i arg3 harg3 arg4 harg4 arg5 harg5 arg6 harg6 hc1 hc2 hc3 x0 x1 x2 xo).1 S1024x2048.size (by sl_kernel_rfl) y

/-- What case C leaves in the output's staging buffer: its pieces read back. -/
def out1_C_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1) (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_C c i arg3 harg3 arg4 harg4 arg5 harg5 arg6 harg6 hc1 hc2 hc3 x0 x1 x2 xo).1)

/-! ## The conditions at a point, from its position modulo 8 -/

theorem cA1 (t : Fin cfg1.N) (h0 : t.val % 8 = 0) : k1_cond1 (grid1.coords t) = 1#1 := (hcond1_1 t).mpr h0
theorem cA2 (t : Fin cfg1.N) (h0 : t.val % 8 = 0) : ¬k1_cond2 (grid1.coords t) = 1#1 := fun h => (hcond1_2 t).mp h h0
theorem cA3 (t : Fin cfg1.N) (h0 : t.val % 8 = 0) : ¬k1_cond3 (grid1.coords t) = 1#1 := fun h => by have := (hcond1_3 t).mp h; omega
theorem cB1 (t : Fin cfg1.N) (h0 : ¬t.val % 8 = 0) : ¬k1_cond1 (grid1.coords t) = 1#1 := fun h => h0 ((hcond1_1 t).mp h)
theorem cB2 (t : Fin cfg1.N) (h0 : ¬t.val % 8 = 0) : k1_cond2 (grid1.coords t) = 1#1 := (hcond1_2 t).mpr h0
theorem cB3 (t : Fin cfg1.N) (h7 : ¬t.val % 8 = 7) : ¬k1_cond3 (grid1.coords t) = 1#1 := fun h => h7 ((hcond1_3 t).mp h)
theorem cC0 (t : Fin cfg1.N) (h7 : t.val % 8 = 7) : ¬t.val % 8 = 0 := by omega
theorem cC3 (t : Fin cfg1.N) (h7 : t.val % 8 = 7) : k1_cond3 (grid1.coords t) = 1#1 := (hcond1_3 t).mpr h7

section Region1
variable (V : (c : Dev nD) → (b : Ref sig .tc) → Buf (Elt F) ((c : Thread nD τ).loc b))

/-- The output's buffer after a point with k = 0: case A on the point's input blocks. -/
def outA (c : Dev nD) (t : Fin cfg1.N) (h0 : t.val % 8 = 0) : Vec F S1024x2048 .f32 :=
  out1_A_3 c (grid1.coords t) (ms1_0 t) (hs1_0 t) (ms1_1 t) (hs1_1 t) (ms1_2 t) (hs1_2 t) (ms1_3 t) (hs1_3 t) (cA1 t h0) (cA2 t h0) (cA3 t h0) (iblk1 V c 0 t) (iblk1 V c 1 t) (iblk1 V c 2 t)
/-- After a point with 0 < k < 7: case B on the point's input blocks and what the buffer held. -/
def outB (c : Dev nD) (t : Fin cfg1.N) (h0 : ¬t.val % 8 = 0) (h7 : ¬t.val % 8 = 7) (xo : Vec F S1024x2048 .f32) : Vec F S1024x2048 .f32 :=
  out1_B_3 c (grid1.coords t) (ms1_0 t) (hs1_0 t) (ms1_1 t) (hs1_1 t) (ms1_2 t) (hs1_2 t) (ms1_3 t) (hs1_3 t) (cB1 t h0) (cB2 t h0) (cB3 t h7) (iblk1 V c 0 t) (iblk1 V c 1 t) (iblk1 V c 2 t) xo
/-- After a point with k = 7: case C on the point's input blocks and what the buffer held. -/
def outC (c : Dev nD) (t : Fin cfg1.N) (h7 : t.val % 8 = 7) (xo : Vec F S1024x2048 .f32) : Vec F S1024x2048 .f32 :=
  out1_C_3 c (grid1.coords t) (ms1_0 t) (hs1_0 t) (ms1_1 t) (hs1_1 t) (ms1_2 t) (hs1_2 t) (ms1_3 t) (hs1_3 t) (cB1 t (cC0 t h7)) (cB2 t (cC0 t h7)) (cC3 t h7) (iblk1 V c 0 t) (iblk1 V c 1 t) (iblk1 V c 2 t) xo

/-- THE ACCUMULATION: what the output's staging buffer holds after the body at position `n`. -/
def outsAt1 (c : Dev nD) : (n : ℕ) → n < cfg1.N → Vec F S1024x2048 .f32
  | 0, hn => outA V c ⟨0, hn⟩ (Nat.zero_mod _)
  | n + 1, hn =>
    if h0 : (n + 1) % 8 = 0 then outA V c ⟨n + 1, hn⟩ h0
    else if h7 : (n + 1) % 8 = 7 then outC V c ⟨n + 1, hn⟩ h7 (outsAt1 c n (Nat.lt_of_succ_lt hn))
    else outB V c ⟨n + 1, hn⟩ h0 h7 (outsAt1 c n (Nat.lt_of_succ_lt hn))

theorem outsAt1_A (c : Dev nD) (t : Fin cfg1.N) (h0 : t.val % 8 = 0) :
    outsAt1 V c t.val t.isLt = outA V c t h0 := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = outB V c t h0 h7 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h7).trans rfl)

theorem outsAt1_C (c : Dev nD) (t : Fin cfg1.N) (h7 : t.val % 8 = 7) :
    outsAt1 V c t.val t.isLt = outC V c t h7 (outsAt1 V c (t.val - 1) (Nat.lt_of_le_of_lt (Nat.sub_le _ _) t.isLt)) := by
  obtain ⟨n, hn⟩ := t
  cases n with
  | zero => exact (by exfalso; have h7' : 0 % 8 = 7 := h7; exact absurd h7' (by decide))
  | succ n => exact (dif_neg (cC0 ⟨n + 1, hn⟩ h7)).trans ((dif_pos h7).trans rfl)

/-- The proof data of pipeline 1 on core `c`: the arrays as the region finds them; after the body at point `t` each
    input's buffer at its block and the output's at `outsAt1`; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with k ≠ 0 the output's current staging buffer holds what the body left at the point before: the
    point is not the first, the buffer was not written back between (that happens after k = 7 only), the window is
    never idle and its blocks tile the array. -/
theorem before1_3_kept (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 256 := lt_of_lt_of_eq t.isLt (show cfg1.N = 256 from N_1)
  rw [Dat.before_out_kept _ 3 rfl t (by omega) (Bool.eq_false_iff.mpr fun h => by have := (flush1_3 _).mp h; dsimp only at this; omega)
    (fun i => live1_3 i) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point: the inputs' memrefs hold their blocks; the position modulo 8 says which case the point is
    in; for k ≠ 0 the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold outA out1_A_3
    iintro ⟨HΦ, Ho, ⟨%d0, H0⟩, ⟨%d1, H1⟩, ⟨%d2, H2⟩, ⟨%d3, H3⟩⟩
    iapply ((kernelRun1_A c (grid1.coords t) _ _ _ _ _ _ _ _ (cA1 t h0) (cA2 t h0) (cA3 t h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · by_cases h7 : t.val % 8 = 7
    · rw [outsAt1_C V c t h7]
      simp only [before1_3_kept V c t h0]
      unfold outC out1_C_3
      iintro ⟨HΦ, Ho, ⟨%d0, H0⟩, ⟨%d1, H1⟩, ⟨%d2, H2⟩, ⟨%d3, H3⟩⟩
      iapply ((kernelRun1_C c (grid1.coords t) _ _ _ _ _ _ _ _ (cB1 t (cC0 t h7)) (cB2 t (cC0 t h7)) (cC3 t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _)
    · rw [outsAt1_B V c t h0 h7]
      simp only [before1_3_kept V c t h0]
      unfold outB out1_B_3
      iintro ⟨HΦ, Ho, ⟨%d0, H0⟩, ⟨%d1, H1⟩, ⟨%d2, H2⟩, ⟨%d3, H3⟩⟩
      iapply ((kernelRun1_B c (grid1.coords t) _ _ _ _ _ _ _ _ (cB1 t h0) (cB2 t h0) (cB3 t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The library's body obligation, at every point: the output window is live everywhere, so its clause is the plain one. -/
theorem body_obligation1 (c : Dev nD) : BodyObligation (dat1 (F := F) V c) (defs₀ (F := F)) Variants.none () Set.univ := fun t => by
  rw [bigSep_W1, bigSep_W1]
  have hl : cfg1.idle 3 (cfg1.grid.coords t) = false := live1_3 _
  rw [hl]
  exact sound_body1 V c t

end Region1

end Cert.Kernel.Hand

end
-- ==== Proof.Kernel.Run.lean ====
/-
  The whole run of the program at any float instance: region 0, the two reshapes of x and the bias, region 1, the reshape
  of the result — as four segments over one thread state, "every unscoped buffer of the core at the boundary's contents".
  The contents at the five boundaries are a fold from the launch memory: a region leaves its arrays at what its
  write-backs leave and every other buffer as entered; a host stretch applies its operations. Every weakly fair
  execution terminates with every unscoped buffer at the last boundary's contents; the arguments, which nothing
  writes, walk back through the fold to the launch memory.
-/
import proofs.«142736_j65687229825366_2_alg».proof.Proof.Kernel.Reg0
import proofs.«142736_j65687229825366_2_alg».proof.Proof.Kernel.Reg1
import proofs.«142736_j65687229825366_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the reshapes of x and of the bias (region 1's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)
/-- After the reshape of the result: the contents the program ends with. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (E0 m ρ) c).arrAt_in 0 rfl _).trans (A_eq0 (E0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := (W1_arr m ρ c 1).trans (((dat0 (E0 m ρ) c).arrAt_in 1 rfl _).trans (A_eq0 (E0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := StableHlo.after_of_writes_sub hostOps1 _ hostOps1_writes (r := main_arg3) (by decide)
    _ = W0 m ρ c (Proc.devRef .tc main_arg3) := (W1_arr m ρ c 2).trans (((dat0 (E0 m ρ) c).arrAt_in 2 rfl _).trans (A_eq0 (E0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := W1_of_ne m ρ c main_arg4 (by decide)
    _ = m ((c : Thread nD τ).loc main_arg4) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E0 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W1`. Its arrays are split
    out of the unscoped buffers and put back at their exit contents; the generator register goes into the invariant and
    comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at their exit contents; the generator register goes into the invariant and
    comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order. -/
abbrev segsH : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments. -/
theorem main_run (c : Dev nD) : main (F := F) c = Pipeline.Seg.run (segsH m ρ) := (main_chain c).trans (by chain_rfl)

set_option backward.isDefEq.respectTransparency.types false in
/-- THE RUN: at the compiled mesh, from any memory with zero counters, every weakly fair execution of @main on the
    TensorCores terminates, nothing faulting, and every final state has every unscoped buffer of every core at the last
    boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.KernelIdeal.Reg0.lean ====
/-
  Region 0 (the effective-weight kernel) as a pipeline with proof data, at any float instance.
  Grid point (i, j) of the 4 x 4 grid reads block (i, j) of W_q (1024 x 1024), row block i of A (1024 x 16) and
  column block j of B (16 x 1024), and writes block (i, j) of the effective weight: one store of the whole output
  block, whose value is a function of the three input blocks only. So after the body the output's staging buffer
  holds that one stored piece read back, whatever it held before.
-/
import proofs.«142736_j65687229825366_2_alg».proof.Proof.Gen.KernelIdeal.Launch
import proofs.«142736_j65687229825366_2_alg».proof.Proof.Gen.KernelIdeal.Skeleton
import proofs.«142736_j65687229825366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_3 : View sig .tc .vmem S1024x1024 .bf16 := (Memref.whole cc0_stg3_0 : Memref sig .tc .vmem S1024x1024 .bf16).view

set_option maxHeartbeats 1000000 in
/-- The pieces the body's stores leave in the output's staging memref (last first), with the proof that on whole
    staging memrefs, the inputs' at their contents and the output's at anything, the body runs to the continuation
    holding the inputs' as they were and the output's buffer with those pieces written. -/
noncomputable def kernelRun0 (c : Dev nD) (i : grid0.Coords) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) :
    { L3 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__effw_kernel i arg2 harg2 arg3 harg3 arg4 harg4 arg5 harg5) K } := by
  refine ⟨?_, fun E K => ?run⟩
  case run =>
    simp only [cc0__effw_kernel_eq_skeleton]; unfold cc0__effw_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The pieces tile the output block, so they cover it. -/
theorem cover0_3 (c : Dev nD) (i : grid0.Coords) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) (y : S1024x1024.Idx) :
    ∃ pc ∈ (kernelRun0 c i arg2 harg2 arg3 harg3 arg4 harg4 arg5 harg5 x0 x1 x2).1, y ∈ pc.1.set :=
  View.cover_of_tiledL (kernelRun0 c i arg2 harg2 arg3 harg3 arg4 harg4 arg5 harg5 x0 x1 x2).1 S1024x1024.size (by sl_kernel_rfl) y

/-- What the body leaves in the output's staging buffer: its pieces read back. -/
def out0_3 (c : Dev nD) (i : grid0.Coords) (arg2 : Memref sig .tc .vmem S1024x1024 .f32) (harg2 : arg2.IsWhole)
    (arg3 : Memref sig .tc .vmem S1024x16 .f32) (harg3 : arg3.IsWhole) (arg4 : Memref sig .tc .vmem S16x1024 .f32) (harg4 : arg4.IsWhole)
    (arg5 : Memref sig .tc .vmem S1024x1024 .bf16) (harg5 : arg5.IsWhole)
    (x0 : Vec F S1024x1024 .f32) (x1 : Vec F S1024x16 .f32) (x2 : Vec F S16x1024 .f32) : Vec F S1024x1024 .bf16 :=
  VO0_3.read (Elt F) (VO0_3.writes (Elt F) VO0_3.junk (kernelRun0 c i arg2 harg2 arg3 harg3 arg4 harg4 arg5 harg5 x0 x1 x2).1)

/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)

/-- The output block of point `t`: the body's pieces over the three input blocks at `t`. -/
def outAt0 (c : Dev nD) (t : Fin cfg0.N) : Vec F S1024x1024 .bf16 :=
  out0_3 c (grid0.coords t) (ms0_0 t) (hs0_0 t) (ms0_1 t) (hs0_1 t) (ms0_2 t) (hs0_2 t) (ms0_3 t) (hs0_3 t)
    (iblk0 V c 0 t) (iblk0 V c 1 t) (iblk0 V c 2 t)

/-- The proof data of pipeline 0 on core `c`: the arrays as the region finds them; after the body at point `t`
    each input's buffer at its block and the output's at `outAt0`; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Reg1Runs.lean ====
/-
  Region 1 (the tiled matmul with bias) — what its control cases share. The grid is 16 x 2 x 8, the last axis k walking
  the contracted axis in 8 blocks of 512. At point (i, j, k) the body forms the partial product of x's block (i, k)
  with the effective weight's block (j, k); it stores it into the output block (i, j) when k = 0, adds it to what the
  block holds when k ≠ 0, and when k = 7 then also adds the bias's block j to every row. The output block is written
  back only at k = 7, so between k = 0 and k = 7 its staging buffer carries the running sum.
-/
import proofs.«142736_j65687229825366_2_alg».proof.Proof.Gen.KernelIdeal.Launch
import proofs.«142736_j65687229825366_2_alg».proof.Proof.Gen.KernelIdeal.Skeleton
import proofs.«142736_j65687229825366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's three conditions over the grid: k = 0, k ≠ 0, k = 7, with k the point's position modulo 8 -/

theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond1_2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)
theorem hcond1_3 : ∀ t : Fin cfg1.N, k1_cond3 (grid1.coords t) = 1#1 ↔ t.val % 8 = 7 :=
  (by decide +kernel : ∀ t : Fin grid1.N, k1_cond3 (grid1.coords t) = 1#1 ↔ t.val % 8 = 7)

/-- At every coordinate one of the first two conditions holds (k = 0 or k ≠ 0), so the output window is never idle. -/
theorem live1_3 (i : grid1.Coords) : cfg1.idle 3 i = false := by
  have h : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)
      && !(Scalar.cmpi .ne (Scalar.extui (Scalar.cmpi .eq (BitVec.ofNat 32 k.val) 7#32)) 0#32 == 1#1)) = false := by decide
  exact h (i 2)

theorem live1 (w : Fin cfg1.W) (i : grid1.Coords) : cfg1.idle w i = false := by
  match w with
  | ⟨0, _⟩ => rfl
  | ⟨1, _⟩ => rfl
  | ⟨2, _⟩ => rfl
  | ⟨3, _⟩ => exact live1_3 i

/-- One staging buffer of the output window, through which its contents are stated. -/
abbrev VO1_3 : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

end Cert.KernelIdeal.Hand

end
-- ==== Proof.KernelIdeal.Run1A.lean ====
/-
  Region 1's body in case A: k = 0 — the partial product is stored over whatever the output's buffer held.
-/
import proofs.«142736_j65687229825366_2_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body's stores leave in the output's staging memref in this case (last first), with the proof that on
    whole staging memrefs — the inputs' at their contents, the output's as stated — the body runs to the continuation
    holding the inputs' as they were and the output's buffer with those pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__mm_kernel i arg3 harg3 arg4 harg4 arg5 harg5 arg6 harg6) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Hand

end
-- ==== Proof.KernelIdeal.Run1B.lean ====
/-
  Region 1's body in case B: 0 < k < 7 — the partial product is added to the running contents of the output's buffer.
-/
import proofs.«142736_j65687229825366_2_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body's stores leave in the output's staging memref in this case (last first), with the proof that on
    whole staging memrefs — the inputs' at their contents, the output's as stated — the body runs to the continuation
    holding the inputs' as they were and the output's buffer with those pieces written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__mm_kernel i arg3 harg3 arg4 harg4 arg5 harg5 arg6 harg6) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Hand

end
-- ==== Proof.KernelIdeal.Run1C.lean ====
/-
  Region 1's body in case C: k = 7 — the partial product is added to the running contents, and then the bias block is added to every row of the result.
-/
import proofs.«142736_j65687229825366_2_alg».proof.Proof.KernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body's stores leave in the output's staging memref in this case (last first), with the proof that on
    whole staging memrefs — the inputs' at their contents, the output's as stated — the body runs to the continuation
    holding the inputs' as they were and the output's buffer with those pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__mm_kernel i arg3 harg3 arg4 harg4 arg5 harg5 arg6 harg6) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Hand

end
-- ==== Proof.KernelIdeal.Reg1.lean ====
/-
  Region 1 as a pipeline with proof data, at any float instance: what the output block's staging buffer holds after
  each grid point, by recursion on the point — the partial product at k = 0, the point before plus the partial product
  for 0 < k < 7, and that plus the bias at k = 7 —, and the body obligation by cases on k.
-/
import proofs.«142736_j65687229825366_2_alg».proof.Proof.KernelIdeal.Run1A
import proofs.«142736_j65687229825366_2_alg».proof.Proof.KernelIdeal.Run1B
import proofs.«142736_j65687229825366_2_alg».proof.Proof.KernelIdeal.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Case A's pieces tile the output block, so they cover it. -/
theorem cover1_A_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1) (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 hc1 hc2 hc3 x0 x1 x2).1, y ∈ pc.1.set :=
  View.cover_of_tiledL (kernelRun1_A c i arg3 harg3 arg4 harg4 arg5 harg5 arg6 harg6 hc1 hc2 hc3 x0 x1 x2).1 S1024x2048.size (by sl_kernel_rfl) y

/-- What case A leaves in the output's staging buffer: its pieces read back. -/
def out1_A_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1) (x0 : Vec F S1024x512 .f32) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 hc1 hc2 hc3 x0 x1 x2).1)

/-- Case B's pieces tile the output block, so they cover it. -/
theorem cover1_B_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1) (x0 : Vec F S1024x512 .f32) (x1 : Vec F S2048x512 .bf16) (x2 : Vec F S1x2048 .f32) (xo : Vec F S1024x2048 .f32) (y : S1024x2048.Idx) :
    ∃ pc ∈ (kernelRun1_B c i arg3 harg3 arg4 harg4 arg5 harg5 arg6 harg6 hc1 hc2 hc3 x0 x1 x2 xo).1, y ∈ pc.1.set :=
  View.cover_of_tiledL (kernelRun1_B c i arg3 harg3 arg4 harg4 arg5 harg5 arg6 harg6 hc1 hc2 hc3 x0 x1 x2 xo).1 S1024x2048.size (by sl_kernel_rfl) y

/-- What case B leaves in the output's staging buffer: its pieces read back. -/
def out1_B_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1) (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_B c i arg3 harg3 arg4 harg4 arg5 harg5 arg6 harg6 hc1 hc2 hc3 x0 x1 x2 xo).1)

/-- Case C's pieces tile the output block, so they cover it. -/
theorem cover1_C_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1) (x0 : Vec F S1024x512 .f32) (x1 : Vec F S2048x512 .bf16) (x2 : Vec F S1x2048 .f32) (xo : Vec F S1024x2048 .f32) (y : S1024x2048.Idx) :
    ∃ pc ∈ (kernelRun1_C c i arg3 harg3 arg4 harg4 arg5 harg5 arg6 harg6 hc1 hc2 hc3 x0 x1 x2 xo).1, y ∈ pc.1.set :=
  View.cover_of_tiledL (kernelRun1_C c i arg3 harg3 arg4 harg4 arg5 harg5 arg6 harg6 hc1 hc2 hc3 x0 x1 x2 xo).1 S1024x2048.size (by sl_kernel_rfl) y

/-- What case C leaves in the output's staging buffer: its pieces read back. -/
def out1_C_3 (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1) (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_C c i arg3 harg3 arg4 harg4 arg5 harg5 arg6 harg6 hc1 hc2 hc3 x0 x1 x2 xo).1)

/-! ## The conditions at a point, from its position modulo 8 -/

theorem cA1 (t : Fin cfg1.N) (h0 : t.val % 8 = 0) : k1_cond1 (grid1.coords t) = 1#1 := (hcond1_1 t).mpr h0
theorem cA2 (t : Fin cfg1.N) (h0 : t.val % 8 = 0) : ¬k1_cond2 (grid1.coords t) = 1#1 := fun h => (hcond1_2 t).mp h h0
theorem cA3 (t : Fin cfg1.N) (h0 : t.val % 8 = 0) : ¬k1_cond3 (grid1.coords t) = 1#1 := fun h => by have := (hcond1_3 t).mp h; omega
theorem cB1 (t : Fin cfg1.N) (h0 : ¬t.val % 8 = 0) : ¬k1_cond1 (grid1.coords t) = 1#1 := fun h => h0 ((hcond1_1 t).mp h)
theorem cB2 (t : Fin cfg1.N) (h0 : ¬t.val % 8 = 0) : k1_cond2 (grid1.coords t) = 1#1 := (hcond1_2 t).mpr h0
theorem cB3 (t : Fin cfg1.N) (h7 : ¬t.val % 8 = 7) : ¬k1_cond3 (grid1.coords t) = 1#1 := fun h => h7 ((hcond1_3 t).mp h)
theorem cC0 (t : Fin cfg1.N) (h7 : t.val % 8 = 7) : ¬t.val % 8 = 0 := by omega
theorem cC3 (t : Fin cfg1.N) (h7 : t.val % 8 = 7) : k1_cond3 (grid1.coords t) = 1#1 := (hcond1_3 t).mpr h7

section Region1
variable (V : (c : Dev nD) → (b : Ref sig .tc) → Buf (Elt F) ((c : Thread nD τ).loc b))

/-- The output's buffer after a point with k = 0: case A on the point's input blocks. -/
def outA (c : Dev nD) (t : Fin cfg1.N) (h0 : t.val % 8 = 0) : Vec F S1024x2048 .f32 :=
  out1_A_3 c (grid1.coords t) (ms1_0 t) (hs1_0 t) (ms1_1 t) (hs1_1 t) (ms1_2 t) (hs1_2 t) (ms1_3 t) (hs1_3 t) (cA1 t h0) (cA2 t h0) (cA3 t h0) (iblk1 V c 0 t) (iblk1 V c 1 t) (iblk1 V c 2 t)
/-- After a point with 0 < k < 7: case B on the point's input blocks and what the buffer held. -/
def outB (c : Dev nD) (t : Fin cfg1.N) (h0 : ¬t.val % 8 = 0) (h7 : ¬t.val % 8 = 7) (xo : Vec F S1024x2048 .f32) : Vec F S1024x2048 .f32 :=
  out1_B_3 c (grid1.coords t) (ms1_0 t) (hs1_0 t) (ms1_1 t) (hs1_1 t) (ms1_2 t) (hs1_2 t) (ms1_3 t) (hs1_3 t) (cB1 t h0) (cB2 t h0) (cB3 t h7) (iblk1 V c 0 t) (iblk1 V c 1 t) (iblk1 V c 2 t) xo
/-- After a point with k = 7: case C on the point's input blocks and what the buffer held. -/
def outC (c : Dev nD) (t : Fin cfg1.N) (h7 : t.val % 8 = 7) (xo : Vec F S1024x2048 .f32) : Vec F S1024x2048 .f32 :=
  out1_C_3 c (grid1.coords t) (ms1_0 t) (hs1_0 t) (ms1_1 t) (hs1_1 t) (ms1_2 t) (hs1_2 t) (ms1_3 t) (hs1_3 t) (cB1 t (cC0 t h7)) (cB2 t (cC0 t h7)) (cC3 t h7) (iblk1 V c 0 t) (iblk1 V c 1 t) (iblk1 V c 2 t) xo

/-- THE ACCUMULATION: what the output's staging buffer holds after the body at position `n`. -/
def outsAt1 (c : Dev nD) : (n : ℕ) → n < cfg1.N → Vec F S1024x2048 .f32
  | 0, hn => outA V c ⟨0, hn⟩ (Nat.zero_mod _)
  | n + 1, hn =>
    if h0 : (n + 1) % 8 = 0 then outA V c ⟨n + 1, hn⟩ h0
    else if h7 : (n + 1) % 8 = 7 then outC V c ⟨n + 1, hn⟩ h7 (outsAt1 c n (Nat.lt_of_succ_lt hn))
    else outB V c ⟨n + 1, hn⟩ h0 h7 (outsAt1 c n (Nat.lt_of_succ_lt hn))

theorem outsAt1_A (c : Dev nD) (t : Fin cfg1.N) (h0 : t.val % 8 = 0) :
    outsAt1 V c t.val t.isLt = outA V c t h0 := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = outB V c t h0 h7 (outsAt1 V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h7).trans rfl)

theorem outsAt1_C (c : Dev nD) (t : Fin cfg1.N) (h7 : t.val % 8 = 7) :
    outsAt1 V c t.val t.isLt = outC V c t h7 (outsAt1 V c (t.val - 1) (Nat.lt_of_le_of_lt (Nat.sub_le _ _) t.isLt)) := by
  obtain ⟨n, hn⟩ := t
  cases n with
  | zero => exact (by exfalso; have h7' : 0 % 8 = 7 := h7; exact absurd h7' (by decide))
  | succ n => exact (dif_neg (cC0 ⟨n + 1, hn⟩ h7)).trans ((dif_pos h7).trans rfl)

/-- The proof data of pipeline 1 on core `c`: the arrays as the region finds them; after the body at point `t` each
    input's buffer at its block and the output's at `outsAt1`; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with k ≠ 0 the output's current staging buffer holds what the body left at the point before: the
    point is not the first, the buffer was not written back between (that happens after k = 7 only), the window is
    never idle and its blocks tile the array. -/
theorem before1_3_kept (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 256 := lt_of_lt_of_eq t.isLt (show cfg1.N = 256 from N_1)
  rw [Dat.before_out_kept _ 3 rfl t (by omega) (Bool.eq_false_iff.mpr fun h => by have := (flush1_3 _).mp h; dsimp only at this; omega)
    (fun i => live1_3 i) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point: the inputs' memrefs hold their blocks; the position modulo 8 says which case the point is
    in; for k ≠ 0 the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold outA out1_A_3
    iintro ⟨HΦ, Ho, ⟨%d0, H0⟩, ⟨%d1, H1⟩, ⟨%d2, H2⟩, ⟨%d3, H3⟩⟩
    iapply ((kernelRun1_A c (grid1.coords t) _ _ _ _ _ _ _ _ (cA1 t h0) (cA2 t h0) (cA3 t h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · by_cases h7 : t.val % 8 = 7
    · rw [outsAt1_C V c t h7]
      simp only [before1_3_kept V c t h0]
      unfold outC out1_C_3
      iintro ⟨HΦ, Ho, ⟨%d0, H0⟩, ⟨%d1, H1⟩, ⟨%d2, H2⟩, ⟨%d3, H3⟩⟩
      iapply ((kernelRun1_C c (grid1.coords t) _ _ _ _ _ _ _ _ (cB1 t (cC0 t h7)) (cB2 t (cC0 t h7)) (cC3 t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _)
    · rw [outsAt1_B V c t h0 h7]
      simp only [before1_3_kept V c t h0]
      unfold outB out1_B_3
      iintro ⟨HΦ, Ho, ⟨%d0, H0⟩, ⟨%d1, H1⟩, ⟨%d2, H2⟩, ⟨%d3, H3⟩⟩
      iapply ((kernelRun1_B c (grid1.coords t) _ _ _ _ _ _ _ _ (cB1 t h0) (cB2 t h0) (cB3 t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The library's body obligation, at every point: the output window is live everywhere, so its clause is the plain one. -/
theorem body_obligation1 (c : Dev nD) : BodyObligation (dat1 (F := F) V c) (defs₀ (F := F)) Variants.none () Set.univ := fun t => by
  rw [bigSep_W1, bigSep_W1]
  have hl : cfg1.idle 3 (cfg1.grid.coords t) = false := live1_3 _
  rw [hl]
  exact sound_body1 V c t

end Region1

end Cert.KernelIdeal.Hand

end
-- ==== Proof.KernelIdeal.Run.lean ====
/-
  The whole run of the program at any float instance: region 0, the two reshapes of x and the bias, region 1, the reshape
  of the result — as four segments over one thread state, "every unscoped buffer of the core at the boundary's contents".
  The contents at the five boundaries are a fold from the launch memory: a region leaves its arrays at what its
  write-backs leave and every other buffer as entered; a host stretch applies its operations. Every weakly fair
  execution terminates with every unscoped buffer at the last boundary's contents; the arguments, which nothing
  writes, walk back through the fold to the launch memory.
-/
import proofs.«142736_j65687229825366_2_alg».proof.Proof.KernelIdeal.Reg0
import proofs.«142736_j65687229825366_2_alg».proof.Proof.KernelIdeal.Reg1
import proofs.«142736_j65687229825366_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the reshapes of x and of the bias (region 1's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)
/-- After the reshape of the result: the contents the program ends with. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (E0 m ρ) c).arrAt_in 0 rfl _).trans (A_eq0 (E0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := (W1_arr m ρ c 1).trans (((dat0 (E0 m ρ) c).arrAt_in 1 rfl _).trans (A_eq0 (E0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := StableHlo.after_of_writes_sub hostOps1 _ hostOps1_writes (r := main_arg3) (by decide)
    _ = W0 m ρ c (Proc.devRef .tc main_arg3) := (W1_arr m ρ c 2).trans (((dat0 (E0 m ρ) c).arrAt_in 2 rfl _).trans (A_eq0 (E0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := W1_of_ne m ρ c main_arg4 (by decide)
    _ = m ((c : Thread nD τ).loc main_arg4) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E0 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W1`. Its arrays are split
    out of the unscoped buffers and put back at their exit contents; the generator register goes into the invariant and
    comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at their exit contents; the generator register goes into the invariant and
    comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order. -/
abbrev segsH : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments. -/
theorem main_run (c : Dev nD) : main (F := F) c = Pipeline.Seg.run (segsH m ρ) := (main_chain c).trans (by chain_rfl)

set_option backward.isDefEq.respectTransparency.types false in
/-- THE RUN: at the compiled mesh, from any memory with zero counters, every weakly fair execution of @main on the
    TensorCores terminates, nothing faulting, and every final state has every unscoped buffer of every core at the last
    boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.KernelIdeal.Pieces.lean ====
/-
  What each control case leaves in an output's staging buffer, as a value: the covering store's payload over the whole
  input blocks. Region 0 leaves W_q's block plus 1/16 of the product of A's and B's blocks; region 1 leaves the partial
  product (k = 0), the running contents plus the partial product (0 < k < 7), and that plus the bias row (k = 7).
-/
import proofs.«142736_j65687229825366_2_alg».proof.Proof.KernelIdeal.Reg0
import proofs.«142736_j65687229825366_2_alg».proof.Proof.KernelIdeal.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Region 0: the one store's payload of the three whole input blocks. -/
theorem out0_3_eq (c : Dev nD) (i : grid0.Coords) (a2 : Memref sig .tc .vmem S1024x1024 .f32) (h2 : a2.IsWhole)
    (a3 : Memref sig .tc .vmem S1024x16 .f32) (h3 : a3.IsWhole) (a4 : Memref sig .tc .vmem S16x1024 .f32) (h4 : a4.IsWhole)
    (a5 : Memref sig .tc .vmem S1024x1024 .bf16) (h5 : a5.IsWhole)
    (x0 : Vec F S1024x1024 .f32) (x1 : Vec F S1024x16 .f32) (x2 : Vec F S16x1024 .f32) :
    out0_3 c i a2 h2 a3 h3 a4 h4 a5 h5 x0 x1 x2 = k0_pay1 x1 x2 x0 := by
  unfold out0_3
  rw [View.read_writes_eq_canon _ _ _ (cover0_3 c i a2 h2 a3 h3 a4 h4 a5 h5 x0 x1 x2)]
  unfold kernelRun0
  dsimp only
  rw [View.canon_unit_zero hz]
  simp only [View.readAt_eq_ld, h2.read_unread, h3.read_unread, h4.read_unread, View.ld_unit_zero (S := S1024x16) hz,
    View.ld_unit_zero (S := S16x1024) hz, View.ld_unit_zero (S := S1024x1024) hz]

/-- Region 1, k = 0: the partial product. -/
theorem out1_A_eq (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) :
    out1_A_3 c i arg3 harg3 arg4 harg4 arg5 harg5 arg6 harg6 hc1 hc2 hc3 x0 x1 x2 = k1_pay1 x0 x1 := by
  unfold out1_A_3
  rw [View.read_writes_eq_canon _ _ _ (cover1_A_3 c i arg3 harg3 arg4 harg4 arg5 harg5 arg6 harg6 hc1 hc2 hc3 x0 x1 x2)]
  unfold kernelRun1_A
  dsimp only
  rw [View.canon_unit_zero hz]
  simp only [View.readAt_eq_ld, harg3.read_unread, harg4.read_unread, View.ld_unit_zero (S := S1024x512) hz,
    View.ld_unit_zero (S := S2048x512) hz]

/-- Region 1, 0 < k < 7: the running contents plus the partial product. -/
theorem out1_B_eq (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) :
    out1_B_3 c i arg3 harg3 arg4 harg4 arg5 harg5 arg6 harg6 hc1 hc2 hc3 x0 x1 x2 xo = k1_pay2 x0 x1 xo := by
  unfold out1_B_3
  rw [View.read_writes_eq_canon _ _ _ (cover1_B_3 c i arg3 harg3 arg4 harg4 arg5 harg5 arg6 harg6 hc1 hc2 hc3 x0 x1 x2 xo)]
  unfold kernelRun1_B
  dsimp only
  rw [View.canon_unit_zero hz]
  simp only [View.readAt_eq_ld, harg3.read_unread, harg4.read_unread, harg6.read_unread, View.ld_unit_zero (S := S1024x512) hz,
    View.ld_unit_zero (S := S2048x512) hz, View.ld_unit_zero (S := S1024x2048) hz]

/-- Region 1, k = 7: the running contents plus the partial product, read back, plus the bias row. -/
theorem out1_C_eq (c : Dev nD) (i : grid1.Coords) (arg3 : Memref sig .tc .vmem S1024x512 .f32) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) :
    out1_C_3 c i arg3 harg3 arg4 harg4 arg5 harg5 arg6 harg6 hc1 hc2 hc3 x0 x1 x2 xo = k1_pay3 (k1_pay2 x0 x1 xo) x2 := by
  unfold out1_C_3
  rw [View.read_writes_eq_canon _ _ _ (cover1_C_3 c i arg3 harg3 arg4 harg4 arg5 harg5 arg6 harg6 hc1 hc2 hc3 x0 x1 x2 xo)]
  unfold kernelRun1_C
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread,
    View.ld_unit_zero (S := S1024x512) hz, View.ld_unit_zero (S := S2048x512) hz, View.ld_unit_zero (S := S1024x2048) hz,
    View.ld_unit_zero (S := S1x2048) hz]

end Cert.KernelIdeal.Hand

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMatmulT.lean ====
/-
  A matrix product whose right operand is stored transposed, read at an index, at the ideal values.
  For dimension numbers that contract axis 1 of BOTH operands, keep axis 0 of each and have no batch
  axis, a `tpu.matmul` into the zero accumulator is, at the output index (p, q), the sum over k of
  x(p, k) · w(q, k).
-/
import Idealize.ShloMosaic.PureOps.Ideal.Laws
import Idealize.ShloMosaic.Lib.ValueIdx

noncomputable section

open scoped BigOperators

namespace Cert.LibMatmulT

open Idealize.ShloMosaic Idealize.ShloMosaic.ValueIdx

/-- The product of a matrix with the transpose of another, index by index. -/
def MMT {A K B : Nat} (x : (⟨2, ![A, K]⟩ : Shape).Idx → EReal) (w : (⟨2, ![B, K]⟩ : Shape).Idx → EReal) :
    (⟨2, ![A, B]⟩ : Shape).Idx → EReal :=
  fun i => ∑ k : Fin K, x (ix2 (i 0) k) * w (ix2 (i 1) k)

theorem MMT_apply {A K B : Nat} (x : (⟨2, ![A, K]⟩ : Shape).Idx → EReal) (w : (⟨2, ![B, K]⟩ : Shape).Idx → EReal)
    (p : Fin A) (q : Fin B) : MMT x w (ix2 p q) = ∑ k : Fin K, x (ix2 p k) * w (ix2 q k) := rfl

section Transposed
variable {A K B : Nat} (d : DotDims ⟨2, ![A, K]⟩ ⟨2, ![B, K]⟩ ⟨2, ![A, B]⟩)
  (hlb : d.lhsBatch = []) (hln : d.lhsNonContracting = [0]) (hlc : d.lhsContracting = [1])
  (hrb : d.rhsBatch = []) (hrn : d.rhsNonContracting = [0]) (hrc : d.rhsContracting = [1])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (j₁, k). -/
theorem rhsIdx_eq (j : (⟨2, ![A, B]⟩ : Shape).Idx) (k : d.contr.Idx) :
    d.rhsIdx j k = ix2 (j 1) ((contrEquiv1 d K (contr_rank d hlc) (contr_size d hlc)) k) := by
  funext a; apply Fin.ext
  match a with
  | ⟨0, _⟩ =>
    show (d.rhsIdx j k 0).val = (j 1).val
    have h0b : (0 : Fin (⟨2, ![B, K]⟩ : Shape).rank) ∉ d.rhsBatch := by rw [hrb]; exact List.not_mem_nil
    have h0n : (0 : Fin (⟨2, ![B, K]⟩ : Shape).rank) ∈ d.rhsNonContracting := by rw [hrn]; exact List.mem_singleton.mpr rfl
    unfold DotDims.rhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])
  | ⟨1, _⟩ =>
    show (d.rhsIdx j k 1).val = _
    rw [d.rhsIdx_val_of_single hrc j k]
    simp [contrEquiv1]

include hrb hrn hrc hlb hln hlc in
/-- The contraction's sum is the product with the transpose at the index. -/
theorem transposed_sum (x : (⟨2, ![A, K]⟩ : Shape).Idx → EReal) (w : (⟨2, ![B, K]⟩ : Shape).Idx → EReal)
    (j : (⟨2, ![A, B]⟩ : Shape).Idx) :
    ∑ k : d.contr.Idx, x (d.lhsIdx j k) * w (d.rhsIdx j k) = MMT x w j := by
  unfold MMT
  rw [← Equiv.sum_comp (contrEquiv1 d K (contr_rank d hlc) (contr_size d hlc)) (fun k' => x (ix2 (j 0) k') * w (ix2 (j 1) k'))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the product with the transpose. -/
theorem matmul_zero_eq {φ₁ φ₂ : FTy} (prec : Option ContractPrecision) (x : FVec Ideal ⟨2, ![A, K]⟩ φ₁) (w : FVec Ideal ⟨2, ![B, K]⟩ φ₂) :
    FloatOps.matmul d prec x w (constant ⟨2, ![A, B]⟩ .f32 0x00000000#32) = MMT x w := by
  funext j
  rw [Ideal.matmul_constant_zero_apply]
  exact transposed_sum d hlb hln hlc hrb hrn hrc x w j

end Transposed

end Cert.LibMatmulT

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.Spec.lean ====
/-
  The result both programs compute, written once over plain arrays of extended reals, and the one law that joins them.

  With x : [4, 4096, 4096], W_q : [4096, 4096], A : [4096, 16], B : [16, 4096], bias : [4096] the effective weight is
      E(o, i) = W_q(o, i) + s · Σ_r A(o, r) · B(r, i)          (s the scaling word, 1/16)
  and the result is
      out(b, t, o) = Σ_i x(b, t, i) · E(o, i) + bias(o).
  The kernel forms the sum over i block by block — eight blocks of 512 terms, added in order into a running total — over
  x flattened to [16384, 4096]. Over the extended reals addition is commutative and associative (infinities included), so
  the total of the eight block sums IS the sum over the whole axis: nothing is assumed of the entries.
-/
import Idealize.ShloMosaic.PureOps.Ideal
import Idealize.ShloMosaic.Lib.ValueIdx
import proofs.«142736_j65687229825366_2_alg».proof.Proof.LibBlockSum

noncomputable section

open scoped BigOperators

namespace Cert.Spec

open Idealize.ShloMosaic Idealize.ShloMosaic.ValueIdx Cert.LibBlockSum

/-- The scaling as both programs spell it: the f32 word of 1/16. The same word stands on both sides, so it is never evaluated. -/
abbrev scal : EReal := Ideal.ofBits .f32 0x3D800000#32

/-- The effective weight at (o, i). -/
def eff (Wq : (⟨2, ![4096, 4096]⟩ : Shape).Idx → EReal) (A : (⟨2, ![4096, 16]⟩ : Shape).Idx → EReal)
    (B : (⟨2, ![16, 4096]⟩ : Shape).Idx → EReal) : (⟨2, ![4096, 4096]⟩ : Shape).Idx → EReal :=
  fun j => Wq j + scal * ∑ r : Fin 16, A (ix2 (j 0) r) * B (ix2 r (j 1))

/-- The result over the flattened rows: row r of X against row o of E, plus the bias at o. -/
def flat (X : (⟨2, ![16384, 4096]⟩ : Shape).Idx → EReal) (E : (⟨2, ![4096, 4096]⟩ : Shape).Idx → EReal)
    (b : (⟨2, ![1, 4096]⟩ : Shape).Idx → EReal) : (⟨2, ![16384, 4096]⟩ : Shape).Idx → EReal :=
  fun j => (∑ k : Fin 4096, X (ix2 (j 0) k) * E (ix2 (j 1) k)) + b (ix2 0 (j 1))

/-- The result, index by index. -/
def G (x : (⟨3, ![4, 4096, 4096]⟩ : Shape).Idx → EReal) (Wq : (⟨2, ![4096, 4096]⟩ : Shape).Idx → EReal)
    (A : (⟨2, ![4096, 16]⟩ : Shape).Idx → EReal) (B : (⟨2, ![16, 4096]⟩ : Shape).Idx → EReal)
    (bias : (⟨1, ![4096]⟩ : Shape).Idx → EReal) : (⟨3, ![4, 4096, 4096]⟩ : Shape).Idx → EReal :=
  fun i => (∑ k : Fin 4096, x (ix3 (i 0) (i 1) k) * eff Wq A B (ix2 (i 2) k)) + bias (ix1 (i 2))

/-- An entry of a matrix by natural-number coordinates (0 outside the matrix), so that a block's entry can be named
    before the block is known to lie inside. -/
def at2 {a b : Nat} (X : (⟨2, ![a, b]⟩ : Shape).Idx → EReal) (r k : ℕ) : EReal :=
  if h : r < a ∧ k < b then X (ix2 ⟨r, h.1⟩ ⟨k, h.2⟩) else 0

theorem at2_ix2 {a b : Nat} (X : (⟨2, ![a, b]⟩ : Shape).Idx → EReal) (p : Fin a) (q : Fin b) :
    at2 X p.val q.val = X (ix2 p q) := by
  unfold at2; rw [dif_pos ⟨p.isLt, q.isLt⟩]

theorem at2_of_lt {a b : Nat} (X : (⟨2, ![a, b]⟩ : Shape).Idx → EReal) (r k : ℕ) (hr : r < a) (hk : k < b) :
    at2 X r k = X (ix2 ⟨r, hr⟩ ⟨k, hk⟩) := by
  unfold at2; rw [dif_pos ⟨hr, hk⟩]

/-- Block j's share (512 terms from 512·j) of the sum of row r of X against row o of E. -/
def blockSum {a b : Nat} (X : (⟨2, ![a, 4096]⟩ : Shape).Idx → EReal) (E : (⟨2, ![b, 4096]⟩ : Shape).Idx → EReal) (r o j : ℕ) : EReal :=
  ∑ l : Fin 512, at2 X r (j * 512 + l.val) * at2 E o (j * 512 + l.val)

/-- The eight block shares add up to the whole sum. -/
theorem blocks_total {a b : Nat} (X : (⟨2, ![a, 4096]⟩ : Shape).Idx → EReal) (E : (⟨2, ![b, 4096]⟩ : Shape).Idx → EReal)
    (r : Fin a) (o : Fin b) :
    ∑ j ∈ Finset.range 8, blockSum X E r.val o.val j = ∑ k : Fin 4096, X (ix2 r k) * E (ix2 o k) := by
  rw [Finset.sum_range, sum_blocks_of_eq 8 512 rfl (fun i : Fin 4096 => X (ix2 r i) * E (ix2 o i))]
  refine Finset.sum_congr rfl fun t _ => ?_
  unfold blockSum
  refine Finset.sum_congr rfl fun q _ => ?_
  have hlt : t.val * 512 + q.val < 4096 := by have := t.isLt; have := q.isLt; omega
  rw [at2_of_lt X _ _ r.isLt hlt, at2_of_lt E _ _ o.isLt hlt]

/-- The effective weight at natural-number coordinates inside the matrix. -/
theorem eff_at (Wq : (⟨2, ![4096, 4096]⟩ : Shape).Idx → EReal) (A : (⟨2, ![4096, 16]⟩ : Shape).Idx → EReal)
    (B : (⟨2, ![16, 4096]⟩ : Shape).Idx → EReal) (r k : ℕ) (hr : r < 4096) (hk : k < 4096) :
    eff Wq A B (ix2 ⟨r, hr⟩ ⟨k, hk⟩) = at2 Wq r k + scal * ∑ s : Fin 16, at2 A r s.val * at2 B s.val k := by
  unfold eff
  rw [at2_of_lt Wq r k hr hk]
  refine congrArg (fun z => Wq (ix2 ⟨r, hr⟩ ⟨k, hk⟩) + scal * z) (Finset.sum_congr rfl fun s _ => ?_)
  rw [at2_of_lt A r s.val hr s.isLt, at2_of_lt B s.val k s.isLt hk]

/-- The flat result at natural-number coordinates: the eight block shares, then the bias. -/
theorem flat_at (X : (⟨2, ![16384, 4096]⟩ : Shape).Idx → EReal) (E : (⟨2, ![4096, 4096]⟩ : Shape).Idx → EReal)
    (b : (⟨2, ![1, 4096]⟩ : Shape).Idx → EReal) (r o : ℕ) (hr : r < 16384) (ho : o < 4096) :
    flat X E b (ix2 ⟨r, hr⟩ ⟨o, ho⟩) = (∑ j ∈ Finset.range 8, blockSum X E r o j) + at2 b 0 o := by
  have h := blocks_total X E ⟨r, hr⟩ ⟨o, ho⟩
  rw [at2_of_lt b 0 o (by decide) ho]
  exact congrArg (· + b (ix2 ⟨0, by decide⟩ ⟨o, ho⟩)) h.symm

/-! ## The running total over the grid of region 1

Point n of the 16 x 2 x 8 grid is (n / 16, n / 8 % 2, n % 8). After it the output block's entry (p, q) holds the shares of
blocks 0 .. n % 8 of the sum for row 1024·(n / 16) + p against row 2048·(n / 8 % 2) + q, and, once n % 8 = 7, the bias. -/

/-- What entry (p, q) of the output block holds after point n. -/
def accN (X : (⟨2, ![16384, 4096]⟩ : Shape).Idx → EReal) (E : (⟨2, ![4096, 4096]⟩ : Shape).Idx → EReal)
    (b : (⟨2, ![1, 4096]⟩ : Shape).Idx → EReal) (n p q : ℕ) : EReal :=
  (∑ j ∈ Finset.range (n % 8 + 1), blockSum X E (n / 16 * 1024 + p) (n / 8 % 2 * 2048 + q) j)
    + (if n % 8 = 7 then at2 b 0 (n / 8 % 2 * 2048 + q) else 0)

section Acc
variable (X : (⟨2, ![16384, 4096]⟩ : Shape).Idx → EReal) (E : (⟨2, ![4096, 4096]⟩ : Shape).Idx → EReal)
  (b : (⟨2, ![1, 4096]⟩ : Shape).Idx → EReal)

/-- At k = 0 the block holds the first share alone. -/
theorem accN_reset (n p q : ℕ) (h0 : n % 8 = 0) :
    accN X E b n p q = blockSum X E (n / 16 * 1024 + p) (n / 8 % 2 * 2048 + q) (n % 8) := by
  unfold accN
  rw [h0, if_neg (by decide), add_zero, Finset.sum_range_one]

/-- For 0 < k < 7 the next share is added to what the point before left. -/
theorem accN_step (n p q : ℕ) (h0 : ¬(n + 1) % 8 = 0) (h7 : ¬(n + 1) % 8 = 7) :
    accN X E b (n + 1) p q
      = accN X E b n p q + blockSum X E ((n + 1) / 16 * 1024 + p) ((n + 1) / 8 % 2 * 2048 + q) ((n + 1) % 8) := by
  have e1 : (n + 1) / 16 = n / 16 := by omega
  have e2 : (n + 1) / 8 % 2 = n / 8 % 2 := by omega
  have e3 : (n + 1) % 8 = n % 8 + 1 := by omega
  have hn7 : ¬n % 8 = 7 := by omega
  unfold accN
  rw [e1, e2, e3, if_neg hn7, if_neg (by omega), add_zero, add_zero, Finset.sum_range_succ]

/-- At k = 7 the last share is added, and then the bias. -/
theorem accN_last (n p q : ℕ) (h7 : (n + 1) % 8 = 7) :
    accN X E b (n + 1) p q
      = (accN X E b n p q + blockSum X E ((n + 1) / 16 * 1024 + p) ((n + 1) / 8 % 2 * 2048 + q) ((n + 1) % 8))
        + at2 b 0 ((n + 1) / 8 % 2 * 2048 + q) := by
  have e1 : (n + 1) / 16 = n / 16 := by omega
  have e2 : (n + 1) / 8 % 2 = n / 8 % 2 := by omega
  have e3 : (n + 1) % 8 = n % 8 + 1 := by omega
  have hn7 : ¬n % 8 = 7 := by omega
  unfold accN
  rw [e1, e2, e3, if_neg hn7, if_pos (by omega), add_zero, Finset.sum_range_succ]

/-- After a point with k = 7 the block holds all eight shares and the bias. -/
theorem accN_final (n p q : ℕ) (h7 : n % 8 = 7) :
    accN X E b n p q
      = (∑ j ∈ Finset.range 8, blockSum X E (n / 16 * 1024 + p) (n / 8 % 2 * 2048 + q) j) + at2 b 0 (n / 8 % 2 * 2048 + q) := by
  unfold accN
  rw [h7, if_pos rfl]

end Acc

end Cert.Spec

end
-- ==== Proof.KernelIdeal.PayVal.lean ====
/-
  The kernels' stored values at the ideal instance, read at an index. Rounding to bf16 on the way into the matrix unit is
  the identity on extended reals, a product into the zero accumulator is the plain sum of products, and a [1, 2048] row
  broadcast over 1024 rows reads its one row.
-/
import proofs.«142736_j65687229825366_2_alg».proof.Proof.Gen.KernelIdeal.Skeleton
import proofs.«142736_j65687229825366_2_alg».proof.Proof.LibMatmul
import proofs.«142736_j65687229825366_2_alg».proof.Proof.LibMatmulT
import proofs.«142736_j65687229825366_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal.Gen

/-- Region 0's stored value at (p, q): W_q's entry plus the scaling times row p of A's block against column q of B's block. -/
theorem pay0_apply (x1 : Vec Ideal S1024x16 .f32) (x2 : Vec Ideal S16x1024 .f32) (x0 : Vec Ideal S1024x1024 .f32) (p q : Fin 1024) :
    k0_pay1 (F := Ideal) x1 x2 x0 (ix2 p q) = x0 (ix2 p q) + Cert.Spec.scal * ∑ r : Fin 16, x1 (ix2 p r) * x2 (ix2 r q) := by
  unfold k0_pay1
  simp only [matmul]
  rw [Cert.LibMatmul.matmul_zero_eq dot_S1024x16_S16x1024_S1024x1024_1_0_0_1_n_n rfl rfl rfl rfl rfl rfl none _ _]
  rfl

/-- Region 1's partial product at (p, q): row p of x's block against row q of the weight's block. -/
theorem pay1_apply (x0 : Vec Ideal S1024x512 .f32) (x1 : Vec Ideal S2048x512 .bf16) (p : Fin 1024) (q : Fin 2048) :
    k1_pay1 (F := Ideal) x0 x1 (ix2 p q) = ∑ l : Fin 512, x0 (ix2 p l) * x1 (ix2 q l) := by
  unfold k1_pay1
  simp only [matmul, shapeCast_self]
  rw [Cert.LibMatmulT.matmul_zero_eq dot_S1024x512_S2048x512_S1024x2048_1_1_0_0_n_n rfl rfl rfl rfl rfl rfl none _ _]
  rfl

/-- The running contents plus the partial product. -/
theorem pay2_apply (x0 : Vec Ideal S1024x512 .f32) (x1 : Vec Ideal S2048x512 .bf16) (xo : Vec Ideal S1024x2048 .f32) (p : Fin 1024) (q : Fin 2048) :
    k1_pay2 (F := Ideal) x0 x1 xo (ix2 p q) = xo (ix2 p q) + ∑ l : Fin 512, x0 (ix2 p l) * x1 (ix2 q l) := by
  unfold k1_pay2
  simp only [shapeCast_self]
  rw [addf_apply, pay1_apply]

/-- The contents plus the bias row. -/
theorem pay3_apply (v : Vec Ideal S1024x2048 .f32) (b : Vec Ideal S1x2048 .f32) (p : Fin 1024) (q : Fin 2048) :
    k1_pay3 (F := Ideal) v b (ix2 p q) = v (ix2 p q) + b (ix2 (0 : Fin 1) q) := by
  unfold k1_pay3
  simp only [shapeCast_self]
  rw [addf_apply, broadcastTo_1b_ab_apply]

end Cert.KernelIdeal.Hand

end
-- ==== Proof.KernelIdeal.Val0.lean ====
/-
  Region 0's result array at the ideal instance: the effective weight, index by index. Point t = 4·i + j of the 4 x 4
  grid reads rows 1024·i.. of W_q and A and columns 1024·j.. of W_q and B, and writes block (i, j); entry (o, k) of the
  array lies in the block of the point 4·(o / 1024) + k / 1024, so the sixteen blocks cover the array.
-/
import proofs.«142736_j65687229825366_2_alg».proof.Proof.KernelIdeal.Reg0
import proofs.«142736_j65687229825366_2_alg».proof.Proof.KernelIdeal.Pieces
import proofs.«142736_j65687229825366_2_alg».proof.Proof.KernelIdeal.PayVal
import proofs.«142736_j65687229825366_2_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal.Gen

section Region0
variable (V : (c : Dev nD) → (b : Ref sig .tc) → Buf (Elt Ideal) ((c : Thread nD τ).loc b))

/-- The printed index maps over the grid: block (t / 4, t % 4) of W_q and of the output, row block t / 4 of A, column block t % 4 of B. -/
theorem idx_facts0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- W_q's block at point t, at (p, q). -/
theorem iblk0_0_apply (c : Dev nD) (t : Fin cfg0.N) (p q : Fin 1024) :
    (iblk0 V c 0 t : Vec Ideal S1024x1024 .f32) (ix2 p q)
      = Cert.Spec.at2 (a := 4096) (b := 4096) (V c main_arg1) (t.val / 4 * 1024 + p.val) (t.val % 4 * 1024 + q.val) := by
  obtain ⟨e0, e1, -⟩ := idx_facts0 t
  have hN : t.val < 16 := lt_of_lt_of_eq t.isLt N_0
  have hp := p.isLt; have hq := q.isLt
  rw [Cert.Spec.at2_of_lt _ _ _ (by omega) (by omega)]
  unfold iblk0
  rw [View.read_apply]
  show V c main_arg1 _ = V c main_arg1 _
  refine congrArg _ (funext fun a => Fin.ext ?_)
  match a with
  | ⟨0, _⟩ => show win0_0.index t (0 : Fin 2) * 1024 + 1 * p.val = t.val / 4 * 1024 + p.val; rw [e0]; omega
  | ⟨1, _⟩ => show win0_0.index t (1 : Fin 2) * 1024 + 1 * q.val = t.val % 4 * 1024 + q.val; rw [e1]; omega

/-- A's block at point t, at (p, r). -/
theorem iblk0_1_apply (c : Dev nD) (t : Fin cfg0.N) (p : Fin 1024) (r : Fin 16) :
    (iblk0 V c 1 t : Vec Ideal S1024x16 .f32) (ix2 p r)
      = Cert.Spec.at2 (a := 4096) (b := 16) (V c main_arg2) (t.val / 4 * 1024 + p.val) r.val := by
  obtain ⟨-, -, e2, e3, -⟩ := idx_facts0 t
  have hN : t.val < 16 := lt_of_lt_of_eq t.isLt N_0
  have hp := p.isLt; have hr := r.isLt
  rw [Cert.Spec.at2_of_lt _ _ _ (by omega) (by omega)]
  unfold iblk0
  rw [View.read_apply]
  show V c main_arg2 _ = V c main_arg2 _
  refine congrArg _ (funext fun a => Fin.ext ?_)
  match a with
  | ⟨0, _⟩ => show win0_1.index t (0 : Fin 2) * 1024 + 1 * p.val = t.val / 4 * 1024 + p.val; rw [e2]; omega
  | ⟨1, _⟩ => show win0_1.index t (1 : Fin 2) * 16 + 1 * r.val = r.val; rw [e3]; omega

/-- B's block at point t, at (r, q). -/
theorem iblk0_2_apply (c : Dev nD) (t : Fin cfg0.N) (r : Fin 16) (q : Fin 1024) :
    (iblk0 V c 2 t : Vec Ideal S16x1024 .f32) (ix2 r q)
      = Cert.Spec.at2 (a := 16) (b := 4096) (V c main_arg3) r.val (t.val % 4 * 1024 + q.val) := by
  obtain ⟨-, -, -, -, e4, e5, -⟩ := idx_facts0 t
  have hN : t.val < 16 := lt_of_lt_of_eq t.isLt N_0
  have hq := q.isLt; have hr := r.isLt
  rw [Cert.Spec.at2_of_lt _ _ _ (by omega) (by omega)]
  unfold iblk0
  rw [View.read_apply]
  show V c main_arg3 _ = V c main_arg3 _
  refine congrArg _ (funext fun a => Fin.ext ?_)
  match a with
  | ⟨0, _⟩ => show win0_2.index t (0 : Fin 2) * 16 + 1 * r.val = r.val; rw [e4]; omega
  | ⟨1, _⟩ => show win0_2.index t (1 : Fin 2) * 1024 + 1 * q.val = t.val % 4 * 1024 + q.val; rw [e5]; omega

/-- The effective weight of the arrays as region 0 finds them. -/
abbrev effV (c : Dev nD) : Buf (Elt Ideal) ((c : Thread nD τ).loc main_v0) :=
  Cert.Spec.eff (V c main_arg1) (V c main_arg2) (V c main_arg3)

/-- WHAT POINT t WRITES BACK is block t of the effective weight. -/
theorem flushed0_eq (c : Dev nD) (t : Fin cfg0.N) :
    (dat0 V c).flushed 3 t = ((cfg0.win 3).blk t).view.read (Elt Ideal) (effV V c) := by
  show (cfg0.win 3).cut (grid0.coords t) ((dat0 V c).after 3 t) = _
  rw [after0_3]
  unfold outAt0
  rw [out0_3_eq]
  obtain ⟨-, -, -, -, -, -, e6, e7⟩ := idx_facts0 t
  have hN : t.val < 16 := lt_of_lt_of_eq t.isLt N_0
  funext j
  obtain ⟨p, q, rfl⟩ : ∃ (p : Fin 1024) (q : Fin 1024), j = ix2 p q := ⟨j 0, j 1, eq_ix2 j⟩
  have hp := p.isLt; have hq := q.isLt
  rw [View.read_apply]
  have hemb : ((cfg0.win 3).blk t).view.emb (ix2 p q)
      = (ix2 (⟨t.val / 4 * 1024 + p.val, by omega⟩ : Fin 4096) (⟨t.val % 4 * 1024 + q.val, by omega⟩ : Fin 4096)) :=
    funext fun a => Fin.ext (by
      match a with
      | ⟨0, _⟩ => show win0_3.index t (0 : Fin 2) * 1024 + 1 * p.val = t.val / 4 * 1024 + p.val; rw [e6]; omega
      | ⟨1, _⟩ => show win0_3.index t (1 : Fin 2) * 1024 + 1 * q.val = t.val % 4 * 1024 + q.val; rw [e7]; omega)
  rw [hemb]
  show k0_pay1 (F := Ideal) (iblk0 V c 1 t) (iblk0 V c 2 t) (iblk0 V c 0 t) (ix2 p q) = Cert.Spec.eff (V c main_arg1) (V c main_arg2) (V c main_arg3) _
  rw [Cert.Spec.eff_at, pay0_apply, iblk0_0_apply]
  refine congrArg (fun z => _ + Cert.Spec.scal * z) (Finset.sum_congr rfl fun r _ => ?_)
  rw [iblk0_1_apply, iblk0_2_apply]

/-- An index of the array is in point t's block iff each coordinate is in the block's range on its axis. -/
theorem mem_blk0 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every entry is in the block of some point, and every point writes its block back. -/
theorem cover0 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 16 := N_0
  have hlt : (i 0).val / 1024 * 4 + (i 1).val / 1024 < cfg0.N := by rw [hN]; omega
  obtain ⟨-, -, -, -, -, -, e6, e7⟩ := idx_facts0 ⟨(i 0).val / 1024 * 4 + (i 1).val / 1024, hlt⟩
  refine ⟨⟨(i 0).val / 1024 * 4 + (i 1).val / 1024, hlt⟩, flush0_3 _, ?_⟩
  rw [mem_blk0]
  intro a
  match a with
  | ⟨0, _⟩ =>
    show win0_3.index ⟨(i 0).val / 1024 * 4 + (i 1).val / 1024, hlt⟩ (0 : Fin 2) * 1024 ≤ (i 0).val
      ∧ (i 0).val < win0_3.index ⟨(i 0).val / 1024 * 4 + (i 1).val / 1024, hlt⟩ (0 : Fin 2) * 1024 + 1024
    rw [e6]; dsimp only; omega
  | ⟨1, _⟩ =>
    show win0_3.index ⟨(i 0).val / 1024 * 4 + (i 1).val / 1024, hlt⟩ (1 : Fin 2) * 1024 ≤ (i 1).val
      ∧ (i 1).val < win0_3.index ⟨(i 0).val / 1024 * 4 + (i 1).val / 1024, hlt⟩ (1 : Fin 2) * 1024 + 1024
    rw [e7]; dsimp only; omega

/-- THE ARRAY after region 0: the effective weight. -/
theorem final0 (c : Dev nD) : (dat0 V c).arrAt 3 cfg0.N = effV V c :=
  (dat0 V c).arrAt_eq_of_cover 3 (effV V c) (fun t _ => flushed0_eq V c t) cover0

end Region0

end Cert.KernelIdeal.Hand

end
-- ==== Proof.KernelIdeal.Val1.lean ====
/-
  Region 1's result array at the ideal instance. Point t of the 16 x 2 x 8 grid is (i, j, k) = (t / 16, t / 8 % 2, t % 8):
  it reads block (i, k) of x (flattened), block (j, k) of the effective weight and block j of the bias row, and works on
  block (i, j) of the output, which is written back at k = 7. By induction on the point the block's staging buffer holds
  the shares of blocks 0 .. k of each entry's sum (and the bias at k = 7); so what is written back is the flat result's
  block, and the 32 written blocks cover the array.
-/
import proofs.«142736_j65687229825366_2_alg».proof.Proof.KernelIdeal.Reg1
import proofs.«142736_j65687229825366_2_alg».proof.Proof.KernelIdeal.Pieces
import proofs.«142736_j65687229825366_2_alg».proof.Proof.KernelIdeal.PayVal
import proofs.«142736_j65687229825366_2_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal.Gen

section Region1
variable (V : (c : Dev nD) → (b : Ref sig .tc) → Buf (Elt Ideal) ((c : Thread nD τ).loc b))

/-- The printed index maps over the grid. -/
theorem idx_facts1 : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- x's block at point t, at (p, l). -/
theorem iblk1_0_apply (c : Dev nD) (t : Fin cfg1.N) (p : Fin 1024) (l : Fin 512) :
    (iblk1 V c 0 t : Vec Ideal S1024x512 .f32) (ix2 p l)
      = Cert.Spec.at2 (a := 16384) (b := 4096) (V c main_v1) (t.val / 16 * 1024 + p.val) (t.val % 8 * 512 + l.val) := by
  obtain ⟨e0, e1, -⟩ := idx_facts1 t
  have hN : t.val < 256 := lt_of_lt_of_eq t.isLt N_1
  have hp := p.isLt; have hl := l.isLt
  rw [Cert.Spec.at2_of_lt _ _ _ (by omega) (by omega)]
  unfold iblk1
  rw [View.read_apply]
  show V c main_v1 _ = V c main_v1 _
  refine congrArg _ (funext fun a => Fin.ext ?_)
  match a with
  | ⟨0, _⟩ => show win1_0.index t (0 : Fin 2) * 1024 + 1 * p.val = t.val / 16 * 1024 + p.val; rw [e0]; omega
  | ⟨1, _⟩ => show win1_0.index t (1 : Fin 2) * 512 + 1 * l.val = t.val % 8 * 512 + l.val; rw [e1]; omega

/-- The effective weight's block at point t, at (q, l). -/
theorem iblk1_1_apply (c : Dev nD) (t : Fin cfg1.N) (q : Fin 2048) (l : Fin 512) :
    (iblk1 V c 1 t : Vec Ideal S2048x512 .bf16) (ix2 q l)
      = Cert.Spec.at2 (a := 4096) (b := 4096) (V c main_v0) (t.val / 8 % 2 * 2048 + q.val) (t.val % 8 * 512 + l.val) := by
  obtain ⟨-, -, e2, e3, -⟩ := idx_facts1 t
  have hN : t.val < 256 := lt_of_lt_of_eq t.isLt N_1
  have hq := q.isLt; have hl := l.isLt
  rw [Cert.Spec.at2_of_lt _ _ _ (by omega) (by omega)]
  unfold iblk1
  rw [View.read_apply]
  show V c main_v0 _ = V c main_v0 _
  refine congrArg _ (funext fun a => Fin.ext ?_)
  match a with
  | ⟨0, _⟩ => show win1_1.index t (0 : Fin 2) * 2048 + 1 * q.val = t.val / 8 % 2 * 2048 + q.val; rw [e2]; omega
  | ⟨1, _⟩ => show win1_1.index t (1 : Fin 2) * 512 + 1 * l.val = t.val % 8 * 512 + l.val; rw [e3]; omega

/-- The bias row's block at point t, at (0, q). -/
theorem iblk1_2_apply (c : Dev nD) (t : Fin cfg1.N) (q : Fin 2048) :
    (iblk1 V c 2 t : Vec Ideal S1x2048 .f32) (ix2 (0 : Fin 1) q)
      = Cert.Spec.at2 (a := 1) (b := 4096) (V c main_v2) 0 (t.val / 8 % 2 * 2048 + q.val) := by
  obtain ⟨-, -, -, -, e4, e5, -⟩ := idx_facts1 t
  have hN : t.val < 256 := lt_of_lt_of_eq t.isLt N_1
  have hq := q.isLt
  rw [Cert.Spec.at2_of_lt _ _ _ (by omega) (by omega)]
  unfold iblk1
  rw [View.read_apply]
  show V c main_v2 _ = V c main_v2 _
  refine congrArg _ (funext fun a => Fin.ext ?_)
  match a with
  | ⟨0, _⟩ => show win1_2.index t (0 : Fin 2) * 1 + 1 * 0 = 0; rw [e4]
  | ⟨1, _⟩ => show win1_2.index t (1 : Fin 2) * 2048 + 1 * q.val = t.val / 8 % 2 * 2048 + q.val; rw [e5]; omega

/-- The partial product of point t at (p, q) is block k's share of the entry's sum. -/
theorem part_eq (c : Dev nD) (t : Fin cfg1.N) (p : Fin 1024) (q : Fin 2048)
    (x0 : Vec Ideal S1024x512 .f32) (x1 : Vec Ideal S2048x512 .bf16) (h0 : x0 = iblk1 V c 0 t) (h1 : x1 = iblk1 V c 1 t) :
    (∑ l : Fin 512, x0 (ix2 p l) * x1 (ix2 q l))
      = Cert.Spec.blockSum (a := 16384) (b := 4096) (V c main_v1) (V c main_v0) (t.val / 16 * 1024 + p.val) (t.val / 8 % 2 * 2048 + q.val) (t.val % 8) := by
  subst h0 h1
  unfold Cert.Spec.blockSum
  refine Finset.sum_congr rfl fun l _ => ?_
  rw [iblk1_0_apply, iblk1_1_apply]

/-- THE RUNNING TOTAL: after point n the output block's staging buffer holds, at (p, q), the accumulation of the spec. -/
theorem outsAt1_val (c : Dev nD) (n : ℕ) : ∀ (h : n < cfg1.N) (p : Fin 1024) (q : Fin 2048),
    outsAt1 V c n h (ix2 p q) = Cert.Spec.accN (V c main_v1) (V c main_v0) (V c main_v2) n p.val q.val := by
  induction n with
  | zero =>
    intro h p q
    rw [show outsAt1 V c 0 h = outA V c ⟨0, h⟩ (Nat.zero_mod _) from rfl]
    unfold outA
    rw [out1_A_eq, pay1_apply, part_eq V c _ p q _ _ rfl rfl, Cert.Spec.accN_reset _ _ _ 0 p.val q.val (Nat.zero_mod _)]
  | succ n ih =>
    intro h p q
    by_cases h0 : (n + 1) % 8 = 0
    · rw [outsAt1_A V c ⟨n + 1, h⟩ h0]
      unfold outA
      rw [out1_A_eq, pay1_apply, part_eq V c _ p q _ _ rfl rfl, Cert.Spec.accN_reset _ _ _ (n + 1) p.val q.val h0]
    · by_cases h7 : (n + 1) % 8 = 7
      · rw [outsAt1_C V c ⟨n + 1, h⟩ h7]
        unfold outC
        rw [out1_C_eq, pay3_apply, pay2_apply, part_eq V c _ p q _ _ rfl rfl, iblk1_2_apply, Cert.Spec.accN_last _ _ _ n p.val q.val h7]
        show outsAt1 V c n _ (ix2 p q) + _ + _ = _
        rw [ih]
      · rw [outsAt1_B V c ⟨n + 1, h⟩ h0 h7]
        unfold outB
        rw [out1_B_eq, pay2_apply, part_eq V c _ p q _ _ rfl rfl, Cert.Spec.accN_step _ _ _ n p.val q.val h0 h7]
        show outsAt1 V c n _ (ix2 p q) + _ = _
        rw [ih]

/-- The flat result of the arrays as region 1 finds them. -/
abbrev flatV (c : Dev nD) : Buf (Elt Ideal) ((c : Thread nD τ).loc main_v3) :=
  Cert.Spec.flat (V c main_v1) (V c main_v0) (V c main_v2)

/-- WHAT A POINT WITH k = 7 WRITES BACK is its block of the flat result. -/
theorem flushed1_eq (c : Dev nD) (t : Fin cfg1.N) (hf : (cfg1.win 3).flush t = true) :
    (dat1 V c).flushed 3 t = ((cfg1.win 3).blk t).view.read (Elt Ideal) (flatV V c) := by
  have h7 : t.val % 8 = 7 := (flush1_3 t).mp hf
  show (cfg1.win 3).cut (grid1.coords t) ((dat1 V c).after 3 t) = _
  rw [after1_3]
  obtain ⟨-, -, -, -, -, -, e6, e7⟩ := idx_facts1 t
  have hN : t.val < 256 := lt_of_lt_of_eq t.isLt N_1
  funext j
  obtain ⟨p, q, rfl⟩ : ∃ (p : Fin 1024) (q : Fin 2048), j = ix2 p q := ⟨j 0, j 1, eq_ix2 j⟩
  have hp := p.isLt; have hq := q.isLt
  rw [View.read_apply]
  have hemb : ((cfg1.win 3).blk t).view.emb (ix2 p q)
      = (ix2 (⟨t.val / 16 * 1024 + p.val, by omega⟩ : Fin 16384) (⟨t.val / 8 % 2 * 2048 + q.val, by omega⟩ : Fin 4096)) :=
    funext fun a => Fin.ext (by
      match a with
      | ⟨0, _⟩ => show win1_3.index t (0 : Fin 2) * 1024 + 1 * p.val = t.val / 16 * 1024 + p.val; rw [e6]; omega
      | ⟨1, _⟩ => show win1_3.index t (1 : Fin 2) * 2048 + 1 * q.val = t.val / 8 % 2 * 2048 + q.val; rw [e7]; omega)
  rw [hemb]
  show outsAt1 V c t.val t.isLt (ix2 p q) = Cert.Spec.flat (V c main_v1) (V c main_v0) (V c main_v2) _
  rw [Cert.Spec.flat_at, outsAt1_val, Cert.Spec.accN_final _ _ _ _ _ _ h7]

/-- An index of the array is in point t's block iff each coordinate is in the block's range on its axis. -/
theorem mem_blk1 (t : Fin cfg1.N) (i : S16384x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v3).slice (win1_3.rect t)).set ↔ _
  rw [View.set_slice_whole, Rect.mem_set_unit]
  exact Iff.rfl

/-- Every entry is in the block of the k = 7 point of its (i, j), which writes the block back. -/
theorem cover1 (i : S16384x4096.Idx) : ∃ t : Fin cfg1.N, (cfg1.win 3).flush t = true ∧ i ∈ ((cfg1.win 3).blk t).view.set := by
  have h0 : (i 0).val < 16384 := (i 0).isLt
  have h1 : (i 1).val < 4096 := (i 1).isLt
  have hN : cfg1.N = 256 := N_1
  have hlt : ((i 0).val / 1024 * 2 + (i 1).val / 2048) * 8 + 7 < cfg1.N := by rw [hN]; omega
  obtain ⟨-, -, -, -, -, -, e6, e7⟩ := idx_facts1 ⟨((i 0).val / 1024 * 2 + (i 1).val / 2048) * 8 + 7, hlt⟩
  refine ⟨⟨((i 0).val / 1024 * 2 + (i 1).val / 2048) * 8 + 7, hlt⟩, (flush1_3 _).mpr (by dsimp only; omega), ?_⟩
  rw [mem_blk1]
  intro a
  match a with
  | ⟨0, _⟩ =>
    show win1_3.index ⟨((i 0).val / 1024 * 2 + (i 1).val / 2048) * 8 + 7, hlt⟩ (0 : Fin 2) * 1024 ≤ (i 0).val
      ∧ (i 0).val < win1_3.index ⟨((i 0).val / 1024 * 2 + (i 1).val / 2048) * 8 + 7, hlt⟩ (0 : Fin 2) * 1024 + 1024
    rw [e6]; dsimp only; omega
  | ⟨1, _⟩ =>
    show win1_3.index ⟨((i 0).val / 1024 * 2 + (i 1).val / 2048) * 8 + 7, hlt⟩ (1 : Fin 2) * 2048 ≤ (i 1).val
      ∧ (i 1).val < win1_3.index ⟨((i 0).val / 1024 * 2 + (i 1).val / 2048) * 8 + 7, hlt⟩ (1 : Fin 2) * 2048 + 2048
    rw [e7]; dsimp only; omega

/-- THE ARRAY after region 1: the flat result. -/
theorem final1 (c : Dev nD) : (dat1 V c).arrAt 3 cfg1.N = flatV V c :=
  (dat1 V c).arrAt_eq_of_cover 3 (flatV V c) (flushed1_eq V c) cover1

end Region1

end Cert.KernelIdeal.Hand

end
-- ==== Proof.Layout.lean ====
/-
  The three reshapes of the kernel's program read at an index, and what they do to the flat result: x : [4, 4096, 4096]
  flattened to [16384, 4096] has row 4096·b + s equal to x(b, s, ·) (the same row-major position), the bias as a [1, 4096]
  row reads bias(o), and the flat result recast to [4, 4096, 4096] reads row 4096·b + s at (b, s, ·).
-/
import proofs.«142736_j65687229825366_2_alg».proof.Proof.Spec
import Idealize.ShloMosaic.Lib.Pipeline.Value
import Idealize.ShloMosaic.Lib.ValueLayout

noncomputable section

open scoped BigOperators

namespace Cert.Spec

open Idealize.ShloMosaic Idealize.ShloMosaic.ValueIdx

/-- x flattened: row 4096·b + s at k is x(b, s, k). -/
theorem flatten_apply {α : Type} (x : (⟨3, ![4, 4096, 4096]⟩ : Shape).Idx → α)
    (h : (⟨3, ![4, 4096, 4096]⟩ : Shape).ShapeCasts ⟨2, ![16384, 4096]⟩)
    (b : Fin 4) (s : Fin 4096) (k : Fin 4096) (hr : b.val * 4096 + s.val < 16384) :
    shapeCast ⟨2, ![16384, 4096]⟩ x h (ix2 ⟨b.val * 4096 + s.val, hr⟩ k) = x (ix3 b s k) :=
  shapeCast_apply x h _ _ (by
    rw [Shape.rowMajor_val_three, Shape.rowMajor_val_two]
    rfl)

/-- The flat array recast: (b, s, o) reads row 4096·b + s at o. -/
theorem unflatten_apply {α : Type} (Y : (⟨2, ![16384, 4096]⟩ : Shape).Idx → α)
    (h : (⟨2, ![16384, 4096]⟩ : Shape).ShapeCasts ⟨3, ![4, 4096, 4096]⟩)
    (b : Fin 4) (s : Fin 4096) (o : Fin 4096) (hr : b.val * 4096 + s.val < 16384) :
    shapeCast ⟨3, ![4, 4096, 4096]⟩ Y h (ix3 b s o) = Y (ix2 ⟨b.val * 4096 + s.val, hr⟩ o) :=
  shapeCast_apply Y h _ _ (by
    rw [Shape.rowMajor_val_three, Shape.rowMajor_val_two]
    rfl)

/-- The kernel's result from the flat one: entry (b, s, o) is the sum over k of x(b, s, k) · E(o, k), plus bias(o). -/
theorem assemble (x : (⟨3, ![4, 4096, 4096]⟩ : Shape).Idx → EReal) (E : (⟨2, ![4096, 4096]⟩ : Shape).Idx → EReal)
    (bias : (⟨1, ![4096]⟩ : Shape).Idx → EReal)
    (h1 : (⟨3, ![4, 4096, 4096]⟩ : Shape).ShapeCasts ⟨2, ![16384, 4096]⟩)
    (h2 : (⟨1, ![4096]⟩ : Shape).ShapeCasts ⟨2, ![1, 4096]⟩)
    (h3 : (⟨2, ![16384, 4096]⟩ : Shape).ShapeCasts ⟨3, ![4, 4096, 4096]⟩) :
    shapeCast ⟨3, ![4, 4096, 4096]⟩ (flat (shapeCast ⟨2, ![16384, 4096]⟩ x h1) E (shapeCast ⟨2, ![1, 4096]⟩ bias h2)) h3
      = fun i => (∑ k : Fin 4096, x (ix3 (i 0) (i 1) k) * E (ix2 (i 2) k)) + bias (ix1 (i 2)) := by
  funext i
  obtain ⟨b, s, o, rfl⟩ : ∃ (b : Fin 4) (s : Fin 4096) (o : Fin 4096), i = ix3 b s o := ⟨i 0, i 1, i 2, eq_ix3 i⟩
  have hr : b.val * 4096 + s.val < 16384 := by have := b.isLt; have := s.isLt; omega
  rw [unflatten_apply _ h3 b s o hr]
  show (∑ k : Fin 4096, shapeCast ⟨2, ![16384, 4096]⟩ x h1 (ix2 ⟨b.val * 4096 + s.val, hr⟩ k) * E (ix2 o k))
      + shapeCast ⟨2, ![1, 4096]⟩ bias h2 (ix2 (0 : Fin 1) o) = (∑ k : Fin 4096, x (ix3 b s k) * E (ix2 o k)) + bias (ix1 o)
  rw [shapeCast_a_1a_apply]
  refine congrArg (· + bias (ix1 o)) (Finset.sum_congr rfl fun k _ => ?_)
  rw [flatten_apply x h1 b s k hr]

end Cert.Spec

end
-- ==== Proof.KernelIdeal.Value.lean ====
/-
  The idealized kernel's result. Region 0 leaves the effective weight in its output array; the host then flattens x to
  [16384, 4096] and makes the bias a [1, 4096] row; region 1 leaves the flat result — each row of x against each row of the
  effective weight, plus the bias — in its output array; the last reshape reads that as [4, 4096, 4096]. So every weakly
  fair execution ends with the result array at the spec's function of the argument arrays, and the arguments as launched.
-/
import proofs.«142736_j65687229825366_2_alg».proof.Proof.KernelIdeal.Run
import proofs.«142736_j65687229825366_2_alg».proof.Proof.KernelIdeal.Val0
import proofs.«142736_j65687229825366_2_alg».proof.Proof.KernelIdeal.Val1
import proofs.«142736_j65687229825366_2_alg».proof.Proof.Layout
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal.Gen

variable (m : (ℓ : Loc nD τ sig) → Buf (Elt Ideal) ℓ) (ρ : Dev nD → PrngReg)

/-- Region 0 does not touch x or the bias. -/
theorem W1_arg0 (c : Dev nD) : W1 m ρ c (Proc.devRef .tc main_arg0) = m ((c : Thread nD τ).loc main_arg0) :=
  (W1_of_ne m ρ c main_arg0 (by decide)).trans rfl
theorem W1_arg4 (c : Dev nD) : W1 m ρ c (Proc.devRef .tc main_arg4) = m ((c : Thread nD τ).loc main_arg4) :=
  (W1_of_ne m ρ c main_arg4 (by decide)).trans rfl

/-- After region 0 its output array holds the effective weight of the launch contents. -/
theorem W1_v0 (c : Dev nD) : W1 m ρ c (Proc.devRef .tc main_v0)
    = Cert.Spec.eff (m ((c : Thread nD τ).loc main_arg1)) (m ((c : Thread nD τ).loc main_arg2)) (m ((c : Thread nD τ).loc main_arg3)) :=
  (W1_arr m ρ c 3).trans ((final0 (E0 m ρ) c).trans rfl)

/-- Region 1 finds x flattened, -/
theorem E2_v1 (c : Dev nD) : E2 m ρ c main_v1
    = shapeCast S16384x4096 (m ((c : Thread nD τ).loc main_arg0)) shapeCasts_S4x4096x4096_S16384x4096 := by
  have h : W2 m ρ c (Proc.devRef .tc main_v1)
      = shapeCast S16384x4096 (W1 m ρ c (Proc.devRef .tc main_arg0)) shapeCasts_S4x4096x4096_S16384x4096 := by
    show StableHlo.after hostOps1 (W1 m ρ c) (Proc.devRef .tc main_v1) = _
    after_results
    rfl
  rw [W1_arg0] at h
  exact h

/-- the bias as one row, -/
theorem E2_v2 (c : Dev nD) : E2 m ρ c main_v2
    = shapeCast S1x4096 (m ((c : Thread nD τ).loc main_arg4)) shapeCasts_S4096_S1x4096 := by
  have h : W2 m ρ c (Proc.devRef .tc main_v2)
      = shapeCast S1x4096 (W1 m ρ c (Proc.devRef .tc main_arg4)) shapeCasts_S4096_S1x4096 := by
    show StableHlo.after hostOps1 (W1 m ρ c) (Proc.devRef .tc main_v2) = _
    after_results
    rfl
  rw [W1_arg4] at h
  exact h

/-- and the effective weight as region 0 left it. -/
theorem E2_v0 (c : Dev nD) : E2 m ρ c main_v0
    = Cert.Spec.eff (m ((c : Thread nD τ).loc main_arg1)) (m ((c : Thread nD τ).loc main_arg2)) (m ((c : Thread nD τ).loc main_arg3)) := by
  have h : W2 m ρ c (Proc.devRef .tc main_v0) = W1 m ρ c (Proc.devRef .tc main_v0) := by
    show StableHlo.after hostOps1 (W1 m ρ c) (Proc.devRef .tc main_v0) = _
    after_results
  exact h.trans (W1_v0 m ρ c)

/-- After region 1 its output array holds the flat result of what it found. -/
theorem W3_v3 (c : Dev nD) : W3 m ρ c (Proc.devRef .tc main_v3)
    = Cert.Spec.flat (E2 m ρ c main_v1) (E2 m ρ c main_v0) (E2 m ρ c main_v2) :=
  (W3_arr m ρ c 3).trans (final1 (E2 m ρ) c)

/-- THE RESULT: the program ends with its result array at the spec's function of the launch contents. -/
theorem W4_v4 (c : Dev nD) : W4 m ρ c (Proc.devRef .tc main_v4)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) := by
  have h : W4 m ρ c (Proc.devRef .tc main_v4)
      = shapeCast S4x4096x4096 (W3 m ρ c (Proc.devRef .tc main_v3)) shapeCasts_S16384x4096_S4x4096x4096 := by
    show StableHlo.after hostOps2 (W3 m ρ c) (Proc.devRef .tc main_v4) = _
    after_results
    rfl
  rw [h, W3_v3, E2_v1, E2_v0, E2_v2]
  exact Cert.Spec.assemble _ _ _ _ _ _

/-- THE RUN, READ: the result array at the spec's function, the arguments unchanged. -/
theorem run_value : θ_run defs (onTc (τ := τ) (main (F := Ideal))) ⟨m, fun _ => 0, ρ⟩ (fun r => ∀ c : Dev nD,
      r.2.mem ((c.tc : Thread nD τ).loc main_v4) = Cert.Spec.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W4_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.RefValue.lean ====
/-
  The reference at the ideal instance is the spec's result: its first product is A·B entry by entry, scaled and added to
  W_q — the effective weight —, its second product contracts x's last axis with the effective weight's second, and the
  bias is broadcast along the last axis.
-/
import proofs.«142736_j65687229825366_2_alg».proof.Proof.Gen.ReferenceIdeal.Read
import proofs.«142736_j65687229825366_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's weight stage is the effective weight. -/
theorem weight_eq (x1 : (⟨S4096x4096, .f32⟩ : BufTy).Contents (Elt Ideal)) (x2 : (⟨S4096x16, .f32⟩ : BufTy).Contents (Elt Ideal))
    (x3 : (⟨S16x4096, .f32⟩ : BufTy).Contents (Elt Ideal)) (j : S4096x4096.Idx) :
    val_main_v3 (F := Ideal) x1 x2 x3 j = Cert.Spec.eff x1 x2 x3 j := by
  have l0 : ∀ k : Fin 16, lidx_main_v0 j k = ix2 (j 0) k := fun k => funext fun a => by
    match a with
    | ⟨0, _⟩ => rfl
    | ⟨1, _⟩ => rfl
  have r0 : ∀ k : Fin 16, ridx_main_v0 j k = ix2 k (j 1) := fun k => funext fun a => by
    match a with
    | ⟨0, _⟩ => rfl
    | ⟨1, _⟩ => rfl
  rw [val_main_v3_apply, val_main_v2_apply, val_main_v1_apply, val_main_cst_apply, val_main_v0_apply]
  simp only [l0, r0]
  rfl

/-- The reference's result is the spec's. -/
theorem ref_eq (x0 : (⟨S4x4096x4096, .f32⟩ : BufTy).Contents (Elt Ideal)) (x1 : (⟨S4096x4096, .f32⟩ : BufTy).Contents (Elt Ideal))
    (x2 : (⟨S4096x16, .f32⟩ : BufTy).Contents (Elt Ideal)) (x3 : (⟨S16x4096, .f32⟩ : BufTy).Contents (Elt Ideal))
    (x4 : (⟨S4096, .f32⟩ : BufTy).Contents (Elt Ideal)) :
    val_main_v7 (F := Ideal) x0 x1 x2 x3 x4 = Cert.Spec.G x0 x1 x2 x3 x4 := by
  funext i
  have e1 : ∀ k : Fin 4096, lidx_main_v4 i k = ix3 (i 0) (i 1) k := fun k => funext fun a => by
    match a with
    | ⟨0, _⟩ => rfl
    | ⟨1, _⟩ => rfl
    | ⟨2, _⟩ => rfl
  have e2 : ∀ k : Fin 4096, ridx_main_v4 i k = ix2 (i 2) k := fun k => funext fun a => by
    match a with
    | ⟨0, _⟩ => rfl
    | ⟨1, _⟩ => rfl
  have e3 : idx_main_v5 (idx_main_v6 i) = ix1 (i 2) := funext fun a => by
    match a with
    | ⟨0, _⟩ => rfl
  rw [val_main_v7_apply, val_main_v4_apply, val_main_v6_apply, val_main_v5_apply]
  simp only [e1, e2, e3]
  show (∑ k : Fin 4096, x0 (ix3 (i 0) (i 1) k) * val_main_v3 (F := Ideal) x1 x2 x3 (ix2 (i 2) k)) + x4 (ix1 (i 2))
    = (∑ k : Fin 4096, x0 (ix3 (i 0) (i 1) k) * Cert.Spec.eff x1 x2 x3 (ix2 (i 2) k)) + x4 (ix1 (i 2))
  refine congrArg (· + x4 (ix1 (i 2))) (Finset.sum_congr rfl fun k _ => ?_)
  rw [weight_eq]

end Cert.ReferenceIdeal.RefValue

end
-- ==== Proof.lean ====
/-
  The certificate of a low-rank-corrected linear layer: out = x · (W_q + (1/16)·A·B)ᵀ + bias, with x : [4, 4096, 4096],
  W_q : [4096, 4096], A : [4096, 16], B : [16, 4096], bias : [4096].

  The kernel's program runs two pipelined regions. The first writes the effective weight E = W_q + s·(A·B) block by block
  (a 4 x 4 grid of 1024 x 1024 blocks, each one store). The second walks a 16 x 2 x 8 grid over x flattened to
  [16384, 4096]: for output block (i, j) it adds up, over k = 0..7, the products of x's block (i, k) with E's block (j, k)
  in the block's staging buffer (stored at k = 0, added to afterwards), adds the bias row at k = 7 and writes the block
  back. Both programs' frames (they terminate, fault nowhere, leave the arguments as launched) come from each region's
  proof data and body runs, at the word-level instance and at the ideal one alike.

  At the ideal instance rounding to bf16 is the identity and every sum is exact, so entry (b, t, o) of the kernel's result
  is the total of the eight 512-term block sums of Σ_i x(b, t, i)·E(o, i), plus bias(o); the reference computes that sum
  in one piece, plus bias(o). The two agree because addition of extended reals is commutative and associative — no entry
  needs to be finite, so the precondition is never opened. The ideal pass rewrote nothing, so `preserves` is trivial.
-/
import proofs.«142736_j65687229825366_2_alg».proof.Defs
import proofs.«142736_j65687229825366_2_alg».proof.Proof.Gen.Kernel
import proofs.«142736_j65687229825366_2_alg».proof.Proof.Gen.KernelIdeal
import proofs.«142736_j65687229825366_2_alg».proof.Proof.Gen.ReferenceIdeal
import proofs.«142736_j65687229825366_2_alg».proof.Proof.Gen.Pre_finite_inputs
import proofs.«142736_j65687229825366_2_alg».proof.Proof.Kernel.Run
import proofs.«142736_j65687229825366_2_alg».proof.Proof.KernelIdeal.Value
import proofs.«142736_j65687229825366_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the spec's function of its arguments, and the reference's at the
    same function of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
